-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x1024x1024 : Shape := ⟨4, ![8, 1, 1024, 1024]⟩
abbrev S_ : Shape := ⟨0, ![]⟩

class Facts : Prop where
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  h_S_ : 0 < S_.numel

variable [Facts]

def fn {F : FTy → Type} [FloatOps F] (main_arg0 : FVec F S8x1x1024x1024 .f32) (main_arg1 : FVec F S8x1x1024x1024 .f32) : IVec S_ 1 :=
  let main_v0 : FVec F S8x1x1024x1024 .f32 := Host.absf main_arg0
  let main_cst : FVec F S_ .f32 := constant S_ .f32 0x7F800000#32
  let main_v1 : FVec F S8x1x1024x1024 .f32 := broadcastInDim S8x1x1024x1024 ![] bcast_S_S8x1x1024x1024 main_cst
  let main_v2 : IVec S8x1x1024x1024 1 := cmpf .olt main_v0 main_v1
  let main_c : IVec S_ 1 := constantI S_ 1 1#1
  let main_v3 : IVec S_ 1 := (fun x v => Host.reduce IntOp.andi x v reducesTo_S8x1x1024x1024_S_d0_1_2_3 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  main_v8
-- ==== Kernel.lean ====
abbrev S8x1x1024x1024 : Shape := ⟨4, ![8, 1, 1024, 1024]⟩
abbrev S_ : Shape := ⟨0, ![]⟩
abbrev S1 : Shape := ⟨1, ![1]⟩
abbrev S1x4 : Shape := ⟨2, ![1, 4]⟩
abbrev S1x1x1024x1024 : Shape := ⟨4, ![1, 1, 1024, 1024]⟩
abbrev S1024x1024 : Shape := ⟨2, ![1024, 1024]⟩
abbrev S1x1024 : Shape := ⟨2, ![1, 1024]⟩
abbrev S1025x1024 : Shape := ⟨2, ![1025, 1024]⟩
abbrev S1026x1024 : Shape := ⟨2, ![1026, 1024]⟩
abbrev S1024x1 : Shape := ⟨2, ![1024, 1]⟩
abbrev S1024x1025 : Shape := ⟨2, ![1024, 1025]⟩
abbrev S1024x1026 : Shape := ⟨2, ![1024, 1026]⟩
abbrev S1x1024x1024 : Shape := ⟨3, ![1, 1024, 1024]⟩
abbrev S1x1x1 : Shape := ⟨3, ![1, 1, 1]⟩
abbrev S4 : Shape := ⟨1, ![4]⟩
abbrev S1x1 : Shape := ⟨2, ![1, 1]⟩

abbrev nBuf : Space → Nat
  | .hbm => 38
  | .vmem => 6
  | .smem => 1
  | _ => 0

abbrev bufTy : (tb : Table) → Fin (tcTables nBuf tb) → BufTy
  | .hbm, ⟨0, _⟩ => ⟨S8x1x1024x1024, .f32⟩
  | .hbm, ⟨1, _⟩ => ⟨S8x1x1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .i1⟩
  | .hbm, ⟨11, _⟩ => ⟨S_, .i32⟩
  | .hbm, ⟨12, _⟩ => ⟨S1x4, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x4, .f32⟩
  | .local _ .vmem, ⟨5, _⟩ => ⟨S1x4, .f32⟩
  | .local _ .smem, ⟨0, _⟩ => ⟨S1, .i32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_cst_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_7 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c7_i32 : BitVec 32 := 7#32
  let v512 : BitVec 1 := Scalar.cmpi .eq arg0 c7_i32
  let v513 : BitVec 32 := Scalar.extui v512
  let c0_i32_75 : BitVec 32 := 0#32
  let v514 : BitVec 1 := Scalar.cmpi .ne v513 c0_i32_75
  v514

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S8x1x1024x1024_S_d0_1_2_3 : S8x1x1024x1024.ReducesTo [0, 1, 2, 3] S_
  h_S_ : 0 < S_.numel
  natLt_1_32 : 1 < 32
  shapeCasts_S_S1 : S_.ShapeCasts S1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1_S1_0 : ∀ a, (![0] : Fin 1 → Nat) a + S1.size a ≤ S1.size a
  numel1_S1 : S1.numel = 1
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  concatenates_S1x1024_S1024x1024_S1025x1024_d0 : Shape.Concatenates [S1x1024, S1024x1024] S1025x1024 0
  concatenates_S1025x1024_S1x1024_S1026x1024_d0 : Shape.Concatenates [S1025x1024, S1x1024] S1026x1024 0
  slices_S1026x1024_o0_0_S1024x1024 : S1026x1024.Slices ![0, 0] S1024x1024
  slices_S1026x1024_o1_0_S1024x1024 : S1026x1024.Slices ![1, 0] S1024x1024
  slices_S1026x1024_o2_0_S1024x1024 : S1026x1024.Slices ![2, 0] S1024x1024
  concatenates_S1024x1_S1024x1024_S1024x1025_d1 : Shape.Concatenates [S1024x1, S1024x1024] S1024x1025 1
  concatenates_S1024x1025_S1024x1_S1024x1026_d1 : Shape.Concatenates [S1024x1025, S1024x1] S1024x1026 1
  slices_S1024x1026_o0_0_S1024x1024 : S1024x1026.Slices ![0, 0] S1024x1024
  slices_S1024x1026_o0_1_S1024x1024 : S1024x1026.Slices ![0, 1] S1024x1024
  slices_S1024x1026_o0_2_S1024x1024 : S1024x1026.Slices ![0, 2] S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S4_d0 : Shape.Concatenates [S1, S1, S1, S1] S4 0
  shapeCasts_S4_S1x4 : S4.ShapeCasts S1x4
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x1x1024x1024.size a
  hwx0_0 : ∀ i : grid0.Coords, EltTy.bits .f32 = 32 ∨ (Rect.block (s := S8x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S8x1x1024x1024.size a
  hwx0_1 : ∀ i : grid0.Coords, EltTy.bits .f32 = 32 ∨ (Rect.block (s := S8x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)

variable [Facts₀]

abbrev spec0_0 : Pipeline.WinSpec sig grid0.rank :=
  Pipeline.WinSpec.ofSpec (Memref.whole main_arg0) S1x1x1024x1024.size reads0_0 false false 2 stage0_0 sem0_0 nbuf0_0 hstage0_0

abbrev spec0_1 : Pipeline.WinSpec sig grid0.rank :=
  Pipeline.WinSpec.ofSpec (Memref.whole main_arg1) S1x1x1024x1024.size reads0_1 false false 2 stage0_1 sem0_1 nbuf0_1 hstage0_1

abbrev spec0_2 : Pipeline.WinSpec sig grid0.rank :=
  Pipeline.WinSpec.ofSpec (Memref.whole main_v7) S1x4.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x1x1024x1024 : Shape := ⟨4, ![8, 1, 1024, 1024]⟩
abbrev S_ : Shape := ⟨0, ![]⟩

abbrev nBuf : Space → Nat
  | .hbm => 269
  | .vmem => 0
  | .smem => 0
  | _ => 0

abbrev hbmTy0_0 (i : Nat) : BufTy := match i % 128 with
  | 0 => ⟨S8x1x1024x1024, .f32⟩
  | 1 => ⟨S8x1x1024x1024, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .i1⟩
  | 10 => ⟨S_, .i1⟩
  | 11 => ⟨S8x1x1024x1024, .f32⟩
  | 12 => ⟨S8x1x1024x1024, .f32⟩
  | 13 => ⟨S_, .f32⟩
  | 14 => ⟨S8x1x1024x1024, .f32⟩
  | 15 => ⟨S8x1x1024x1024, .f32⟩
  | 16 => ⟨S_, .f32⟩
  | 17 => ⟨S8x1x1024x1024, .f32⟩
  | 18 => ⟨S8x1x1024x1024, .f32⟩
  | 19 => ⟨S8x1x1024x1024, .f32⟩
  | 20 => ⟨S_, .f32⟩
  | 21 => ⟨S_, .f32⟩
  | 22 => ⟨S8x1x1024x1024, .f32⟩
  | 23 => ⟨S_, .f32⟩
  | 24 => ⟨S_, .f32⟩
  | 25 => ⟨S8x1x1024x1024, .f32⟩
  | 26 => ⟨S8x1x1024x1024, .f32⟩
  | 27 => ⟨S_, .f32⟩
  | 28 => ⟨S_, .f32⟩
  | 29 => ⟨S8x1x1024x1024, .f32⟩
  | 30 => ⟨S_, .f32⟩
  | 31 => ⟨S_, .f32⟩
  | 32 => ⟨S8x1x1024x1024, .f32⟩
  | 33 => ⟨S8x1x1024x1024, .f32⟩
  | 34 => ⟨S8x1x1024x1024, .f32⟩
  | 35 => ⟨S_, .f32⟩
  | 36 => ⟨S8x1x1024x1024, .f32⟩
  | 37 => ⟨S8x1x1024x1024, .f32⟩
  | 38 => ⟨S_, .f32⟩
  | 39 => ⟨S_, .f32⟩
  | 40 => ⟨S8x1x1024x1024, .f32⟩
  | 41 => ⟨S_, .f32⟩
  | 42 => ⟨S_, .f32⟩
  | 43 => ⟨S8x1x1024x1024, .f32⟩
  | 44 => ⟨S8x1x1024x1024, .f32⟩
  | 45 => ⟨S_, .f32⟩
  | 46 => ⟨S_, .f32⟩
  | 47 => ⟨S8x1x1024x1024, .f32⟩
  | 48 => ⟨S_, .f32⟩
  | 49 => ⟨S_, .f32⟩
  | 50 => ⟨S8x1x1024x1024, .f32⟩
  | 51 => ⟨S8x1x1024x1024, .f32⟩
  | 52 => ⟨S_, .f32⟩
  | 53 => ⟨S_, .f32⟩
  | 54 => ⟨S8x1x1024x1024, .f32⟩
  | 55 => ⟨S_, .f32⟩
  | 56 => ⟨S_, .f32⟩
  | 57 => ⟨S8x1x1024x1024, .f32⟩
  | 58 => ⟨S8x1x1024x1024, .f32⟩
  | 59 => ⟨S8x1x1024x1024, .f32⟩
  | 60 => ⟨S_, .f32⟩
  | 61 => ⟨S8x1x1024x1024, .f32⟩
  | 62 => ⟨S8x1x1024x1024, .f32⟩
  | 63 => ⟨S8x1x1024x1024, .f32⟩
  | 64 => ⟨S8x1x1024x1024, .f32⟩
  | 65 => ⟨S_, .f32⟩
  | 66 => ⟨S8x1x1024x1024, .f32⟩
  | 67 => ⟨S8x1x1024x1024, .f32⟩
  | 68 => ⟨S8x1x1024x1024, .f32⟩
  | 69 => ⟨S_, .f32⟩
  | 70 => ⟨S_, .f32⟩
  | 71 => ⟨S8x1x1024x1024, .f32⟩
  | 72 => ⟨S_, .f32⟩
  | 73 => ⟨S_, .f32⟩
  | 74 => ⟨S8x1x1024x1024, .f32⟩
  | 75 => ⟨S8x1x1024x1024, .f32⟩
  | 76 => ⟨S_, .f32⟩
  | 77 => ⟨S_, .f32⟩
  | 78 => ⟨S8x1x1024x1024, .f32⟩
  | 79 => ⟨S_, .f32⟩
  | 80 => ⟨S_, .f32⟩
  | 81 => ⟨S8x1x1024x1024, .f32⟩
  | 82 => ⟨S8x1x1024x1024, .f32⟩
  | 83 => ⟨S_, .f32⟩
  | 84 => ⟨S_, .f32⟩
  | 85 => ⟨S8x1x1024x1024, .f32⟩
  | 86 => ⟨S_, .f32⟩
  | 87 => ⟨S_, .f32⟩
  | 88 => ⟨S8x1x1024x1024, .f32⟩
  | 89 => ⟨S8x1x1024x1024, .f32⟩
  | 90 => ⟨S8x1x1024x1024, .f32⟩
  | 91 => ⟨S_, .f32⟩
  | 92 => ⟨S8x1x1024x1024, .f32⟩
  | 93 => ⟨S8x1x1024x1024, .f32⟩
  | 94 => ⟨S8x1x1024x1024, .f32⟩
  | 95 => ⟨S8x1x1024x1024, .f32⟩
  | 96 => ⟨S_, .f32⟩
  | 97 => ⟨S8x1x1024x1024, .f32⟩
  | 98 => ⟨S8x1x1024x1024, .f32⟩
  | 99 => ⟨S8x1x1024x1024, .f32⟩
  | 100 => ⟨S_, .f32⟩
  | 101 => ⟨S_, .f32⟩
  | 102 => ⟨S8x1x1024x1024, .f32⟩
  | 103 => ⟨S_, .f32⟩
  | 104 => ⟨S_, .f32⟩
  | 105 => ⟨S8x1x1024x1024, .f32⟩
  | 106 => ⟨S8x1x1024x1024, .f32⟩
  | 107 => ⟨S_, .f32⟩
  | 108 => ⟨S_, .f32⟩
  | 109 => ⟨S8x1x1024x1024, .f32⟩
  | 110 => ⟨S_, .f32⟩
  | 111 => ⟨S_, .f32⟩
  | 112 => ⟨S8x1x1024x1024, .f32⟩
  | 113 => ⟨S8x1x1024x1024, .f32⟩
  | 114 => ⟨S_, .f32⟩
  | 115 => ⟨S_, .f32⟩
  | 116 => ⟨S8x1x1024x1024, .f32⟩
  | 117 => ⟨S_, .f32⟩
  | 118 => ⟨S_, .f32⟩
  | 119 => ⟨S8x1x1024x1024, .f32⟩
  | 120 => ⟨S8x1x1024x1024, .f32⟩
  | 121 => ⟨S8x1x1024x1024, .f32⟩
  | 122 => ⟨S_, .f32⟩
  | 123 => ⟨S8x1x1024x1024, .f32⟩
  | 124 => ⟨S8x1x1024x1024, .f32⟩
  | 125 => ⟨S8x1x1024x1024, .f32⟩
  | 126 => ⟨S8x1x1024x1024, .f32⟩
  | 127 => ⟨S_, .f32⟩
  | _ => ⟨S8x1x1024x1024, .f32⟩

abbrev hbmTy0_1 (i : Nat) : BufTy := match i % 128 with
  | 0 => ⟨S8x1x1024x1024, .f32⟩
  | 1 => ⟨S8x1x1024x1024, .f32⟩
  | 2 => ⟨S8x1x1024x1024, .f32⟩
  | 3 => ⟨S_, .f32⟩
  | 4 => ⟨S_, .f32⟩
  | 5 => ⟨S8x1x1024x1024, .f32⟩
  | 6 => ⟨S_, .f32⟩
  | 7 => ⟨S_, .f32⟩
  | 8 => ⟨S8x1x1024x1024, .f32⟩
  | 9 => ⟨S8x1x1024x1024, .f32⟩
  | 10 => ⟨S_, .f32⟩
  | 11 => ⟨S_, .f32⟩
  | 12 => ⟨S8x1x1024x1024, .f32⟩
  | 13 => ⟨S_, .f32⟩
  | 14 => ⟨S_, .f32⟩
  | 15 => ⟨S8x1x1024x1024, .f32⟩
  | 16 => ⟨S8x1x1024x1024, .f32⟩
  | 17 => ⟨S8x1x1024x1024, .f32⟩
  | 18 => ⟨S_, .f32⟩
  | 19 => ⟨S8x1x1024x1024, .f32⟩
  | 20 => ⟨S8x1x1024x1024, .f32⟩
  | 21 => ⟨S_, .f32⟩
  | 22 => ⟨S_, .f32⟩
  | 23 => ⟨S8x1x1024x1024, .f32⟩
  | 24 => ⟨S_, .f32⟩
  | 25 => ⟨S_, .f32⟩
  | 26 => ⟨S8x1x1024x1024, .f32⟩
  | 27 => ⟨S8x1x1024x1024, .f32⟩
  | 28 => ⟨S_, .f32⟩
  | 29 => ⟨S_, .f32⟩
  | 30 => ⟨S8x1x1024x1024, .f32⟩
  | 31 => ⟨S_, .f32⟩
  | 32 => ⟨S_, .f32⟩
  | 33 => ⟨S8x1x1024x1024, .f32⟩
  | 34 => ⟨S8x1x1024x1024, .f32⟩
  | 35 => ⟨S_, .f32⟩
  | 36 => ⟨S_, .f32⟩
  | 37 => ⟨S8x1x1024x1024, .f32⟩
  | 38 => ⟨S_, .f32⟩
  | 39 => ⟨S_, .f32⟩
  | 40 => ⟨S8x1x1024x1024, .f32⟩
  | 41 => ⟨S8x1x1024x1024, .f32⟩
  | 42 => ⟨S8x1x1024x1024, .f32⟩
  | 43 => ⟨S_, .f32⟩
  | 44 => ⟨S8x1x1024x1024, .f32⟩
  | 45 => ⟨S8x1x1024x1024, .f32⟩
  | 46 => ⟨S8x1x1024x1024, .f32⟩
  | 47 => ⟨S8x1x1024x1024, .f32⟩
  | 48 => ⟨S_, .f32⟩
  | 49 => ⟨S8x1x1024x1024, .f32⟩
  | 50 => ⟨S8x1x1024x1024, .f32⟩
  | 51 => ⟨S8x1x1024x1024, .f32⟩
  | 52 => ⟨S_, .f32⟩
  | 53 => ⟨S_, .f32⟩
  | 54 => ⟨S8x1x1024x1024, .f32⟩
  | 55 => ⟨S_, .f32⟩
  | 56 => ⟨S_, .f32⟩
  | 57 => ⟨S8x1x1024x1024, .f32⟩
  | 58 => ⟨S8x1x1024x1024, .f32⟩
  | 59 => ⟨S_, .f32⟩
  | 60 => ⟨S_, .f32⟩
  | 61 => ⟨S8x1x1024x1024, .f32⟩
  | 62 => ⟨S_, .f32⟩
  | 63 => ⟨S_, .f32⟩
  | 64 => ⟨S8x1x1024x1024, .f32⟩
  | 65 => ⟨S8x1x1024x1024, .f32⟩
  | 66 => ⟨S_, .f32⟩
  | 67 => ⟨S_, .f32⟩
  | 68 => ⟨S8x1x1024x1024, .f32⟩
  | 69 => ⟨S_, .f32⟩
  | 70 => ⟨S_, .f32⟩
  | 71 => ⟨S8x1x1024x1024, .f32⟩
  | 72 => ⟨S8x1x1024x1024, .f32⟩
  | 73 => ⟨S8x1x1024x1024, .f32⟩
  | 74 => ⟨S_, .f32⟩
  | 75 => ⟨S8x1x1024x1024, .f32⟩
  | 76 => ⟨S8x1x1024x1024, .f32⟩
  | 77 => ⟨S8x1x1024x1024, .f32⟩
  | 78 => ⟨S8x1x1024x1024, .f32⟩
  | 79 => ⟨S_, .f32⟩
  | 80 => ⟨S8x1x1024x1024, .f32⟩
  | 81 => ⟨S8x1x1024x1024, .f32⟩
  | 82 => ⟨S8x1x1024x1024, .f32⟩
  | 83 => ⟨S_, .f32⟩
  | 84 => ⟨S_, .f32⟩
  | 85 => ⟨S8x1x1024x1024, .f32⟩
  | 86 => ⟨S_, .f32⟩
  | 87 => ⟨S_, .f32⟩
  | 88 => ⟨S8x1x1024x1024, .f32⟩
  | 89 => ⟨S8x1x1024x1024, .f32⟩
  | 90 => ⟨S_, .f32⟩
  | 91 => ⟨S_, .f32⟩
  | 92 => ⟨S8x1x1024x1024, .f32⟩
  | 93 => ⟨S_, .f32⟩
  | 94 => ⟨S_, .f32⟩
  | 95 => ⟨S8x1x1024x1024, .f32⟩
  | 96 => ⟨S8x1x1024x1024, .f32⟩
  | 97 => ⟨S_, .f32⟩
  | 98 => ⟨S_, .f32⟩
  | 99 => ⟨S8x1x1024x1024, .f32⟩
  | 100 => ⟨S_, .f32⟩
  | 101 => ⟨S_, .f32⟩
  | 102 => ⟨S8x1x1024x1024, .f32⟩
  | 103 => ⟨S8x1x1024x1024, .f32⟩
  | 104 => ⟨S8x1x1024x1024, .f32⟩
  | 105 => ⟨S_, .f32⟩
  | 106 => ⟨S8x1x1024x1024, .f32⟩
  | 107 => ⟨S8x1x1024x1024, .f32⟩
  | 108 => ⟨S8x1x1024x1024, .f32⟩
  | 109 => ⟨S8x1x1024x1024, .f32⟩
  | 110 => ⟨S_, .f32⟩
  | 111 => ⟨S8x1x1024x1024, .f32⟩
  | 112 => ⟨S8x1x1024x1024, .f32⟩
  | 113 => ⟨S8x1x1024x1024, .f32⟩
  | 114 => ⟨S8x1x1024x1024, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8x1x1024x1024, .f32⟩
  | 125 => ⟨S_, .f32⟩
  | 126 => ⟨S_, .f32⟩
  | 127 => ⟨S_, .f32⟩
  | _ => ⟨S8x1x1024x1024, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S8x1x1024x1024, .f32⟩

abbrev hbmTy (i : Nat) : BufTy := match i / 128 with
  | 0 => hbmTy0_0 i
  | 1 => hbmTy0_1 i
  | 2 => hbmTy0_2 i
  | _ => ⟨S8x1x1024x1024, .f32⟩

abbrev bufTy : (tb : Table) → Fin (tcTables nBuf tb) → BufTy
  | .hbm, ⟨i, _⟩ => hbmTy i
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_13 : Ref sig .tc := ⟨.hbm, 52, rfl⟩
abbrev main_v34 : Ref sig .tc := ⟨.hbm, 53, rfl⟩
abbrev main_v35 : Ref sig .tc := ⟨.hbm, 54, rfl⟩
abbrev main_cst_14 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call3_cst : Ref sig .tc := ⟨.hbm, 65, rfl⟩
abbrev main_call3_v0 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_17 : Ref sig .tc := ⟨.hbm, 76, rfl⟩
abbrev main_v50 : Ref sig .tc := ⟨.hbm, 77, rfl⟩
abbrev main_v51 : Ref sig .tc := ⟨.hbm, 78, rfl⟩
abbrev main_cst_18 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_19 : Ref sig .tc := ⟨.hbm, 83, rfl⟩
abbrev main_v55 : Ref sig .tc := ⟨.hbm, 84, rfl⟩
abbrev main_v56 : Ref sig .tc := ⟨.hbm, 85, rfl⟩
abbrev main_cst_20 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call4_cst : Ref sig .tc := ⟨.hbm, 91, rfl⟩
abbrev main_call4_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call5_cst : Ref sig .tc := ⟨.hbm, 96, rfl⟩
abbrev main_call5_v0 : Ref sig .tc := ⟨.hbm, 97, rfl⟩
abbrev main_v64 : Ref sig .tc := ⟨.hbm, 98, rfl⟩
abbrev main_v65 : Ref sig .tc := ⟨.hbm, 99, rfl⟩
abbrev main_cst_21 : Ref sig .tc := ⟨.hbm, 100, rfl⟩
abbrev main_v66 : Ref sig .tc := ⟨.hbm, 101, rfl⟩
abbrev main_v67 : Ref sig .tc := ⟨.hbm, 102, rfl⟩
abbrev main_cst_22 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_23 : Ref sig .tc := ⟨.hbm, 107, rfl⟩
abbrev main_v71 : Ref sig .tc := ⟨.hbm, 108, rfl⟩
abbrev main_v72 : Ref sig .tc := ⟨.hbm, 109, rfl⟩
abbrev main_cst_24 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩
abbrev main_cst_26 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call6_cst : Ref sig .tc := ⟨.hbm, 122, rfl⟩
abbrev main_call6_v0 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call7_cst : Ref sig .tc := ⟨.hbm, 127, rfl⟩
abbrev main_call7_v0 : Ref sig .tc := ⟨.hbm, 128, rfl⟩
abbrev main_v85 : Ref sig .tc := ⟨.hbm, 129, rfl⟩
abbrev main_v86 : Ref sig .tc := ⟨.hbm, 130, rfl⟩
abbrev main_cst_27 : Ref sig .tc := ⟨.hbm, 131, rfl⟩
abbrev main_v87 : Ref sig .tc := ⟨.hbm, 132, rfl⟩
abbrev main_v88 : Ref sig .tc := ⟨.hbm, 133, rfl⟩
abbrev main_cst_28 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_29 : Ref sig .tc := ⟨.hbm, 138, rfl⟩
abbrev main_v92 : Ref sig .tc := ⟨.hbm, 139, rfl⟩
abbrev main_v93 : Ref sig .tc := ⟨.hbm, 140, rfl⟩
abbrev main_cst_30 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call8_cst : Ref sig .tc := ⟨.hbm, 146, rfl⟩
abbrev main_call8_v0 : Ref sig .tc := ⟨.hbm, 147, rfl⟩
abbrev main_v98 : Ref sig .tc := ⟨.hbm, 148, rfl⟩
abbrev main_cst_31 : Ref sig .tc := ⟨.hbm, 149, rfl⟩
abbrev main_v99 : Ref sig .tc := ⟨.hbm, 150, rfl⟩
abbrev main_v100 : Ref sig .tc := ⟨.hbm, 151, rfl⟩
abbrev main_cst_32 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_33 : Ref sig .tc := ⟨.hbm, 156, rfl⟩
abbrev main_v104 : Ref sig .tc := ⟨.hbm, 157, rfl⟩
abbrev main_v105 : Ref sig .tc := ⟨.hbm, 158, rfl⟩
abbrev main_cst_34 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_35 : Ref sig .tc := ⟨.hbm, 163, rfl⟩
abbrev main_v109 : Ref sig .tc := ⟨.hbm, 164, rfl⟩
abbrev main_v110 : Ref sig .tc := ⟨.hbm, 165, rfl⟩
abbrev main_cst_36 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call9_cst : Ref sig .tc := ⟨.hbm, 171, rfl⟩
abbrev main_call9_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_call10_cst : Ref sig .tc := ⟨.hbm, 176, rfl⟩
abbrev main_call10_v0 : Ref sig .tc := ⟨.hbm, 177, rfl⟩
abbrev main_v118 : Ref sig .tc := ⟨.hbm, 178, rfl⟩
abbrev main_v119 : Ref sig .tc := ⟨.hbm, 179, rfl⟩
abbrev main_cst_37 : Ref sig .tc := ⟨.hbm, 180, rfl⟩
abbrev main_v120 : Ref sig .tc := ⟨.hbm, 181, rfl⟩
abbrev main_v121 : Ref sig .tc := ⟨.hbm, 182, rfl⟩
abbrev main_cst_38 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_39 : Ref sig .tc := ⟨.hbm, 187, rfl⟩
abbrev main_v125 : Ref sig .tc := ⟨.hbm, 188, rfl⟩
abbrev main_v126 : Ref sig .tc := ⟨.hbm, 189, rfl⟩
abbrev main_cst_40 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_41 : Ref sig .tc := ⟨.hbm, 194, rfl⟩
abbrev main_v130 : Ref sig .tc := ⟨.hbm, 195, rfl⟩
abbrev main_v131 : Ref sig .tc := ⟨.hbm, 196, rfl⟩
abbrev main_cst_42 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_call11_cst : Ref sig .tc := ⟨.hbm, 202, rfl⟩
abbrev main_call11_v0 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_call12_cst : Ref sig .tc := ⟨.hbm, 207, rfl⟩
abbrev main_call12_v0 : Ref sig .tc := ⟨.hbm, 208, rfl⟩
abbrev main_v139 : Ref sig .tc := ⟨.hbm, 209, rfl⟩
abbrev main_v140 : Ref sig .tc := ⟨.hbm, 210, rfl⟩
abbrev main_cst_43 : Ref sig .tc := ⟨.hbm, 211, rfl⟩
abbrev main_v141 : Ref sig .tc := ⟨.hbm, 212, rfl⟩
abbrev main_v142 : Ref sig .tc := ⟨.hbm, 213, rfl⟩
abbrev main_cst_44 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_45 : Ref sig .tc := ⟨.hbm, 218, rfl⟩
abbrev main_v146 : Ref sig .tc := ⟨.hbm, 219, rfl⟩
abbrev main_v147 : Ref sig .tc := ⟨.hbm, 220, rfl⟩
abbrev main_cst_46 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_47 : Ref sig .tc := ⟨.hbm, 225, rfl⟩
abbrev main_v151 : Ref sig .tc := ⟨.hbm, 226, rfl⟩
abbrev main_v152 : Ref sig .tc := ⟨.hbm, 227, rfl⟩
abbrev main_cst_48 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_call13_cst : Ref sig .tc := ⟨.hbm, 233, rfl⟩
abbrev main_call13_v0 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_call14_cst : Ref sig .tc := ⟨.hbm, 238, rfl⟩
abbrev main_call14_v0 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_49 : Ref sig .tc := ⟨.hbm, 243, rfl⟩
abbrev main_v163 : Ref sig .tc := ⟨.hbm, 244, rfl⟩
abbrev main_cst_50 : Ref sig .tc := ⟨.hbm, 245, rfl⟩
abbrev main_v164 : Ref sig .tc := ⟨.hbm, 246, rfl⟩
abbrev main_cst_51 : Ref sig .tc := ⟨.hbm, 247, rfl⟩
abbrev main_v165 : Ref sig .tc := ⟨.hbm, 248, rfl⟩
abbrev main_cst_52 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_cst_53 : Ref sig .tc := ⟨.hbm, 253, rfl⟩
abbrev main_v169 : Ref sig .tc := ⟨.hbm, 254, rfl⟩
abbrev main_cst_54 : Ref sig .tc := ⟨.hbm, 255, rfl⟩
abbrev main_v170 : Ref sig .tc := ⟨.hbm, 256, rfl⟩
abbrev main_cst_55 : Ref sig .tc := ⟨.hbm, 257, rfl⟩
abbrev main_v171 : Ref sig .tc := ⟨.hbm, 258, rfl⟩
abbrev main_cst_56 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_cst_57 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_cst_58 : Ref sig .tc := ⟨.hbm, 267, rfl⟩
abbrev main_v178 : Ref sig .tc := ⟨.hbm, 268, rfl⟩

abbrev nD : Nat := 1
abbrev τ : Topo := Topo.v7x

variable {F : FTy → Type} [FloatOps F]

class Facts₀ : Prop where
  reducesTo_S8x1x1024x1024_S_d0_1_2_3 : S8x1x1024x1024.ReducesTo [0, 1, 2, 3] S_
  h_S_ : 0 < S_.numel
  bcast_S_S8x1x1024x1024 : S_.BroadcastsInDim S8x1x1024x1024 (![] : Fin 0 → Fin S8x1x1024x1024.rank)
  bcast_S_S_ : S_.BroadcastsInDim S_ (![] : Fin 0 → Fin S_.rank)
  reduceWindows_S8x1x1024x1024_S8x1x1024x1024_w1s1p0_0_w1s1p0_0_w3s1p1_1_w1s1p0_0 : S8x1x1024x1024.ReduceWindows (![1, 1, 3, 1] : Fin 4 → Nat) ![1, 1, 1, 1] ![0, 0, 1, 0] ![0, 0, 1, 0] S8x1x1024x1024
  reduceWindows_S8x1x1024x1024_S8x1x1024x1024_w1s1p0_0_w1s1p0_0_w1s1p0_0_w3s1p1_1 : S8x1x1024x1024.ReduceWindows (![1, 1, 1, 3] : Fin 4 → Nat) ![1, 1, 1, 1] ![0, 0, 0, 1] ![0, 0, 0, 1] S8x1x1024x1024

variable [Facts₀]

class Facts : Prop extends Facts₀ where

variable [Facts]
-- ==== Proof.RefRunOps.lean ====
/-
  The reference program's 267 host operations, in program order, cut into ten consecutive stretches at the
  places where a whole image is handed on: the prediction (the logistic function applied when an entry lies
  outside [0, 1]); then, for the prediction and again for the target, the skeleton's start
  relu (x − open x) and its three rounds; and the four totals with the closing arithmetic.  For each stretch:
  the list, the buffers it writes (so every other buffer keeps its contents through it), that it touches
  TensorCore references only, and that every operation determines its results.
-/
import proofs.«134960_j61838939128150_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxHeartbeats 1000000 in
/-- The prediction: the flag, the logistic function, the choice. -/
def segP : List (HloOp τ sig (Elt F)) :=
  [ nullary main_cst (constant S_ .f32 0x7F800000#32),
    binary main_arg0 main_cst main_v0 ((fun x v => Host.reduce FloatOps.minimumf x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_0 (constant S_ .f32 0x00000000#32),
    binary main_v0 main_cst_0 main_v1 (cmpf .olt : (⟨S_, .f32⟩ : BufTy).Contents (Elt F) → (⟨S_, .f32⟩ : BufTy).Contents (Elt F) → (⟨S_, .i1⟩ : BufTy).Contents (Elt F)),
    nullary main_cst_1 (constant S_ .f32 0xFF800000#32),
    binary main_arg0 main_cst_1 main_v2 ((fun x v => Host.reduce FloatOps.maximumf x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_2 (constant S_ .f32 0x3F800000#32),
    binary main_v2 main_cst_2 main_v3 (cmpf .ogt : (⟨S_, .f32⟩ : BufTy).Contents (Elt F) → (⟨S_, .f32⟩ : BufTy).Contents (Elt F) → (⟨S_, .i1⟩ : BufTy).Contents (Elt F)),
    binary main_v1 main_v3 main_v4 (ori : (⟨S_, .i1⟩ : BufTy).Contents (Elt F) → (⟨S_, .i1⟩ : BufTy).Contents (Elt F) → (⟨S_, .i1⟩ : BufTy).Contents (Elt F)),
    unary main_arg0 main_v5 (Host.negf : (⟨S8x1x1024x1024, .f32⟩ : BufTy).Contents (Elt F) → (⟨S8x1x1024x1024, .f32⟩ : BufTy).Contents (Elt F)),
    unary main_v5 main_v6 (Host.exp : (⟨S8x1x1024x1024, .f32⟩ : BufTy).Contents (Elt F) → (⟨S8x1x1024x1024, .f32⟩ : BufTy).Contents (Elt F)),
    nullary main_cst_3 (constant S_ .f32 0x3F800000#32),
    unary main_cst_3 main_v7 (broadcastInDim S8x1x1024x1024 ![] bcast_S_S8x1x1024x1024 : (⟨S_, .f32⟩ : BufTy).Contents (Elt F) → (⟨S8x1x1024x1024, .f32⟩ : BufTy).Contents (Elt F)),
    binary main_v7 main_v6 main_v8 (addf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_4 (constant S_ .f32 0x3F800000#32),
    unary main_cst_4 main_v9 (broadcastInDim S8x1x1024x1024 ![] bcast_S_S8x1x1024x1024 : (⟨S_, .f32⟩ : BufTy).Contents (Elt F) → (⟨S8x1x1024x1024, .f32⟩ : BufTy).Contents (Elt F)),
    binary main_v9 main_v8 main_v10 (Host.divf : (⟨S8x1x1024x1024, .f32⟩ : BufTy).Contents (Elt F) → (⟨S8x1x1024x1024, .f32⟩ : BufTy).Contents (Elt F) → (⟨S8x1x1024x1024, .f32⟩ : BufTy).Contents (Elt F)),
    TRef.ternary (TRef.of (T := ⟨S_, .i1⟩) main_v4) (TRef.of (T := ⟨S8x1x1024x1024, .f32⟩) main_v10) (TRef.of (T := ⟨S8x1x1024x1024, .f32⟩) main_arg0) (TRef.of (T := ⟨S8x1x1024x1024, .f32⟩) main_v11) (fun p a b => select (broadcastInDim S8x1x1024x1024 ![] bcast_S_S8x1x1024x1024 p) a b) ]

/-- The buffers `segP` writes. -/
abbrev segP_W : List (Ref sig .tc) := [main_cst, main_v0, main_cst_0, main_v1, main_cst_1, main_v2, main_cst_2, main_v3, main_v4, main_v5, main_v6, main_cst_3, main_v7, main_v8, main_cst_4, main_v9, main_v10, main_v11]

set_option maxHeartbeats 1000000 in
theorem segP_writes : (segP : List (HloOp τ sig (Elt F))).Forall fun op => op.writes ⊆ (segP_W.map (Proc.devRef (τ := τ) .tc)).toFinset := by
  simp only [segP, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segP` does not write keeps its contents through it. -/
theorem segP_keep (V : Valuation τ sig (Elt F)) (r : Ref sig .tc) (h : r ∉ segP_W) :
    after segP V (Proc.devRef .tc r) = V (Proc.devRef .tc r) :=
  after_of_writes_sub segP V segP_writes h

set_option maxHeartbeats 1000000 in
theorem segP_sub : (segP : List (HloOp τ sig (Elt F))).Forall fun op => op.bufs ⊆ tcRefs τ sig := by
  simp only [segP, List.Forall]
  exact ⟨nullary_bufs_sub .., binary_bufs_sub .., nullary_bufs_sub .., binary_bufs_sub .., nullary_bufs_sub .., binary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub ..⟩

set_option maxHeartbeats 1000000 in
theorem segP_fresh : (segP : List (HloOp τ sig (Elt F))).Forall fun op => op.fresh = ∅ := by
  simp only [segP, List.Forall]
  exact ⟨rfl, rfl, rfl, rfl, rfl, rfl, rfl, rfl, rfl, rfl, rfl, rfl, rfl, rfl, rfl, rfl, rfl, rfl⟩

set_option maxHeartbeats 1000000 in
/-- The prediction's skeleton, start: relu (x − open x). -/
def segA1 : List (HloOp τ sig (Elt F)) :=
  [ nullary main_cst_5 (constant S_ .f32 0x7F800000#32),
    unary main_cst_5 main_v12 (broadcastInDim S_ ![] bcast_S_S_ : (⟨S_, .f32⟩ : BufTy).Contents (Elt F) → (⟨S_, .f32⟩ : BufTy).Contents (Elt F)),
    binary main_v11 main_v12 main_v13 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_6 (constant S_ .f32 0x7F800000#32),
    unary main_cst_6 main_v14 (broadcastInDim S_ ![] bcast_S_S_ : (⟨S_, .f32⟩ : BufTy).Contents (Elt F) → (⟨S_, .f32⟩ : BufTy).Contents (Elt F)),
    binary main_v11 main_v14 main_v15 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v13 main_v15 main_v16 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_7 (constant S_ .f32 0xFF800000#32),
    unary main_cst_7 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_8 (constant S_ .f32 0xFF800000#32),
    unary main_cst_8 main_v19 (broadcastInDim S_ ![] bcast_S_S_ : (⟨S_, .f32⟩ : BufTy).Contents (Elt F) → (⟨S_, .f32⟩ : BufTy).Contents (Elt F)),
    binary main_v16 main_v19 main_v20 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v18 main_v20 main_v21 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v11 main_v21 main_v22 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x1x1024x1024, .f32⟩) main_call1_v0) (broadcastInDim S8x1x1024x1024 ![] bcast_S_S8x1x1024x1024),
    TRef.binary (TRef.of (T := ⟨S8x1x1024x1024, .f32⟩) main_v22) (TRef.of (T := ⟨S8x1x1024x1024, .f32⟩) main_call1_v0) (TRef.of (T := ⟨S8x1x1024x1024, .f32⟩) main_v23) maximumf ]

/-- The buffers `segA1` writes. -/
abbrev segA1_W : List (Ref sig .tc) := [main_cst_5, main_v12, main_v13, main_cst_6, main_v14, main_v15, main_v16, main_cst_7, main_v17, main_v18, main_cst_8, main_v19, main_v20, main_v21, main_v22, main_call1_cst, main_call1_v0, main_v23]

set_option maxHeartbeats 1000000 in
theorem segA1_writes : (segA1 : List (HloOp τ sig (Elt F))).Forall fun op => op.writes ⊆ (segA1_W.map (Proc.devRef (τ := τ) .tc)).toFinset := by
  simp only [segA1, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segA1` does not write keeps its contents through it. -/
theorem segA1_keep (V : Valuation τ sig (Elt F)) (r : Ref sig .tc) (h : r ∉ segA1_W) :
    after segA1 V (Proc.devRef .tc r) = V (Proc.devRef .tc r) :=
  after_of_writes_sub segA1 V segA1_writes h

set_option maxHeartbeats 1000000 in
theorem segA1_sub : (segA1 : List (HloOp τ sig (Elt F))).Forall fun op => op.bufs ⊆ tcRefs τ sig := by
  simp only [segA1, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub ..⟩

set_option maxHeartbeats 1000000 in
theorem segA1_fresh : (segA1 : List (HloOp τ sig (Elt F))).Forall fun op => op.fresh = ∅ := by
  simp only [segA1, List.Forall]
  exact ⟨rfl, rfl, rfl, rfl, rfl, rfl, rfl, rfl, rfl, rfl, rfl, rfl, rfl, rfl, rfl, rfl, rfl, rfl⟩

set_option maxHeartbeats 1000000 in
/-- The prediction's skeleton, round 1. -/
def segA2 : List (HloOp τ sig (Elt F)) :=
  [ nullary main_cst_9 (constant S_ .f32 0x7F800000#32),
    unary main_cst_9 main_v24 (broadcastInDim S_ ![] bcast_S_S_ : (⟨S_, .f32⟩ : BufTy).Contents (Elt F) → (⟨S_, .f32⟩ : BufTy).Contents (Elt F)),
    binary main_v11 main_v24 main_v25 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_10 (constant S_ .f32 0x7F800000#32),
    unary main_cst_10 main_v26 (broadcastInDim S_ ![] bcast_S_S_ : (⟨S_, .f32⟩ : BufTy).Contents (Elt F) → (⟨S_, .f32⟩ : BufTy).Contents (Elt F)),
    binary main_v11 main_v26 main_v27 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v25 main_v27 main_v28 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_11 (constant S_ .f32 0x7F800000#32),
    unary main_cst_11 main_v29 (broadcastInDim S_ ![] bcast_S_S_ : (⟨S_, .f32⟩ : BufTy).Contents (Elt F) → (⟨S_, .f32⟩ : BufTy).Contents (Elt F)),
    binary main_v28 main_v29 main_v30 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_12 (constant S_ .f32 0x7F800000#32),
    unary main_cst_12 main_v31 (broadcastInDim S_ ![] bcast_S_S_ : (⟨S_, .f32⟩ : BufTy).Contents (Elt F) → (⟨S_, .f32⟩ : BufTy).Contents (Elt F)),
    binary main_v28 main_v31 main_v32 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v30 main_v32 main_v33 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_13 (constant S_ .f32 0xFF800000#32),
    unary main_cst_13 main_v34 (broadcastInDim S_ ![] bcast_S_S_ : (⟨S_, .f32⟩ : BufTy).Contents (Elt F) → (⟨S_, .f32⟩ : BufTy).Contents (Elt F)),
    binary main_v33 main_v34 main_v35 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_14 (constant S_ .f32 0xFF800000#32),
    unary main_cst_14 main_v36 (broadcastInDim S_ ![] bcast_S_S_ : (⟨S_, .f32⟩ : BufTy).Contents (Elt F) → (⟨S_, .f32⟩ : BufTy).Contents (Elt F)),
    binary main_v33 main_v36 main_v37 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v35 main_v37 main_v38 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v28 main_v38 main_v39 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x1x1024x1024, .f32⟩) main_call2_v0) (broadcastInDim S8x1x1024x1024 ![] bcast_S_S8x1x1024x1024),
    TRef.binary (TRef.of (T := ⟨S8x1x1024x1024, .f32⟩) main_v39) (TRef.of (T := ⟨S8x1x1024x1024, .f32⟩) main_call2_v0) (TRef.of (T := ⟨S8x1x1024x1024, .f32⟩) main_v40) maximumf,
    binary main_v23 main_v40 main_v41 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v40 main_v41 main_v42 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x1x1024x1024, .f32⟩) main_call3_v0) (broadcastInDim S8x1x1024x1024 ![] bcast_S_S8x1x1024x1024),
    TRef.binary (TRef.of (T := ⟨S8x1x1024x1024, .f32⟩) main_v42) (TRef.of (T := ⟨S8x1x1024x1024, .f32⟩) main_call3_v0) (TRef.of (T := ⟨S8x1x1024x1024, .f32⟩) main_v43) maximumf,
    binary main_v23 main_v43 main_v44 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segA2` writes. -/
abbrev segA2_W : List (Ref sig .tc) := [main_cst_9, main_v24, main_v25, main_cst_10, main_v26, main_v27, main_v28, main_cst_11, main_v29, main_v30, main_cst_12, main_v31, main_v32, main_v33, main_cst_13, main_v34, main_v35, main_cst_14, main_v36, main_v37, main_v38, main_v39, main_call2_cst, main_call2_v0, main_v40, main_v41, main_v42, main_call3_cst, main_call3_v0, main_v43, main_v44]

set_option maxHeartbeats 1000000 in
theorem segA2_writes : (segA2 : List (HloOp τ sig (Elt F))).Forall fun op => op.writes ⊆ (segA2_W.map (Proc.devRef (τ := τ) .tc)).toFinset := by
  simp only [segA2, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segA2` does not write keeps its contents through it. -/
theorem segA2_keep (V : Valuation τ sig (Elt F)) (r : Ref sig .tc) (h : r ∉ segA2_W) :
    after segA2 V (Proc.devRef .tc r) = V (Proc.devRef .tc r) :=
  after_of_writes_sub segA2 V segA2_writes h

set_option maxHeartbeats 1000000 in
theorem segA2_sub : (segA2 : List (HloOp τ sig (Elt F))).Forall fun op => op.bufs ⊆ tcRefs τ sig := by
  simp only [segA2, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segA2_fresh : (segA2 : List (HloOp τ sig (Elt F))).Forall fun op => op.fresh = ∅ := by
  simp only [segA2, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The prediction's skeleton, round 2. -/
def segA3 : List (HloOp τ sig (Elt F)) :=
  [ nullary main_cst_15 (constant S_ .f32 0x7F800000#32),
    unary main_cst_15 main_v45 (broadcastInDim S_ ![] bcast_S_S_ : (⟨S_, .f32⟩ : BufTy).Contents (Elt F) → (⟨S_, .f32⟩ : BufTy).Contents (Elt F)),
    binary main_v28 main_v45 main_v46 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_16 (constant S_ .f32 0x7F800000#32),
    unary main_cst_16 main_v47 (broadcastInDim S_ ![] bcast_S_S_ : (⟨S_, .f32⟩ : BufTy).Contents (Elt F) → (⟨S_, .f32⟩ : BufTy).Contents (Elt F)),
    binary main_v28 main_v47 main_v48 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v46 main_v48 main_v49 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_17 (constant S_ .f32 0x7F800000#32),
    unary main_cst_17 main_v50 (broadcastInDim S_ ![] bcast_S_S_ : (⟨S_, .f32⟩ : BufTy).Contents (Elt F) → (⟨S_, .f32⟩ : BufTy).Contents (Elt F)),
    binary main_v49 main_v50 main_v51 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_18 (constant S_ .f32 0x7F800000#32),
    unary main_cst_18 main_v52 (broadcastInDim S_ ![] bcast_S_S_ : (⟨S_, .f32⟩ : BufTy).Contents (Elt F) → (⟨S_, .f32⟩ : BufTy).Contents (Elt F)),
    binary main_v49 main_v52 main_v53 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v51 main_v53 main_v54 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_19 (constant S_ .f32 0xFF800000#32),
    unary main_cst_19 main_v55 (broadcastInDim S_ ![] bcast_S_S_ : (⟨S_, .f32⟩ : BufTy).Contents (Elt F) → (⟨S_, .f32⟩ : BufTy).Contents (Elt F)),
    binary main_v54 main_v55 main_v56 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_20 (constant S_ .f32 0xFF800000#32),
    unary main_cst_20 main_v57 (broadcastInDim S_ ![] bcast_S_S_ : (⟨S_, .f32⟩ : BufTy).Contents (Elt F) → (⟨S_, .f32⟩ : BufTy).Contents (Elt F)),
    binary main_v54 main_v57 main_v58 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v56 main_v58 main_v59 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v49 main_v59 main_v60 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x1x1024x1024, .f32⟩) main_call4_v0) (broadcastInDim S8x1x1024x1024 ![] bcast_S_S8x1x1024x1024),
    TRef.binary (TRef.of (T := ⟨S8x1x1024x1024, .f32⟩) main_v60) (TRef.of (T := ⟨S8x1x1024x1024, .f32⟩) main_call4_v0) (TRef.of (T := ⟨S8x1x1024x1024, .f32⟩) main_v61) maximumf,
    binary main_v44 main_v61 main_v62 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v61 main_v62 main_v63 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x1x1024x1024, .f32⟩) main_call5_v0) (broadcastInDim S8x1x1024x1024 ![] bcast_S_S8x1x1024x1024),
    TRef.binary (TRef.of (T := ⟨S8x1x1024x1024, .f32⟩) main_v63) (TRef.of (T := ⟨S8x1x1024x1024, .f32⟩) main_call5_v0) (TRef.of (T := ⟨S8x1x1024x1024, .f32⟩) main_v64) maximumf,
    binary main_v44 main_v64 main_v65 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segA3` writes. -/
abbrev segA3_W : List (Ref sig .tc) := [main_cst_15, main_v45, main_v46, main_cst_16, main_v47, main_v48, main_v49, main_cst_17, main_v50, main_v51, main_cst_18, main_v52, main_v53, main_v54, main_cst_19, main_v55, main_v56, main_cst_20, main_v57, main_v58, main_v59, main_v60, main_call4_cst, main_call4_v0, main_v61, main_v62, main_v63, main_call5_cst, main_call5_v0, main_v64, main_v65]

set_option maxHeartbeats 1000000 in
theorem segA3_writes : (segA3 : List (HloOp τ sig (Elt F))).Forall fun op => op.writes ⊆ (segA3_W.map (Proc.devRef (τ := τ) .tc)).toFinset := by
  simp only [segA3, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segA3` does not write keeps its contents through it. -/
theorem segA3_keep (V : Valuation τ sig (Elt F)) (r : Ref sig .tc) (h : r ∉ segA3_W) :
    after segA3 V (Proc.devRef .tc r) = V (Proc.devRef .tc r) :=
  after_of_writes_sub segA3 V segA3_writes h

set_option maxHeartbeats 1000000 in
theorem segA3_sub : (segA3 : List (HloOp τ sig (Elt F))).Forall fun op => op.bufs ⊆ tcRefs τ sig := by
  simp only [segA3, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segA3_fresh : (segA3 : List (HloOp τ sig (Elt F))).Forall fun op => op.fresh = ∅ := by
  simp only [segA3, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The prediction's skeleton, round 3. -/
def segA4 : List (HloOp τ sig (Elt F)) :=
  [ nullary main_cst_21 (constant S_ .f32 0x7F800000#32),
    unary main_cst_21 main_v66 (broadcastInDim S_ ![] bcast_S_S_ : (⟨S_, .f32⟩ : BufTy).Contents (Elt F) → (⟨S_, .f32⟩ : BufTy).Contents (Elt F)),
    binary main_v49 main_v66 main_v67 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_22 (constant S_ .f32 0x7F800000#32),
    unary main_cst_22 main_v68 (broadcastInDim S_ ![] bcast_S_S_ : (⟨S_, .f32⟩ : BufTy).Contents (Elt F) → (⟨S_, .f32⟩ : BufTy).Contents (Elt F)),
    binary main_v49 main_v68 main_v69 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v67 main_v69 main_v70 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_23 (constant S_ .f32 0x7F800000#32),
    unary main_cst_23 main_v71 (broadcastInDim S_ ![] bcast_S_S_ : (⟨S_, .f32⟩ : BufTy).Contents (Elt F) → (⟨S_, .f32⟩ : BufTy).Contents (Elt F)),
    binary main_v70 main_v71 main_v72 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_24 (constant S_ .f32 0x7F800000#32),
    unary main_cst_24 main_v73 (broadcastInDim S_ ![] bcast_S_S_ : (⟨S_, .f32⟩ : BufTy).Contents (Elt F) → (⟨S_, .f32⟩ : BufTy).Contents (Elt F)),
    binary main_v70 main_v73 main_v74 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v72 main_v74 main_v75 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_25 (constant S_ .f32 0xFF800000#32),
    unary main_cst_25 main_v76 (broadcastInDim S_ ![] bcast_S_S_ : (⟨S_, .f32⟩ : BufTy).Contents (Elt F) → (⟨S_, .f32⟩ : BufTy).Contents (Elt F)),
    binary main_v75 main_v76 main_v77 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_26 (constant S_ .f32 0xFF800000#32),
    unary main_cst_26 main_v78 (broadcastInDim S_ ![] bcast_S_S_ : (⟨S_, .f32⟩ : BufTy).Contents (Elt F) → (⟨S_, .f32⟩ : BufTy).Contents (Elt F)),
    binary main_v75 main_v78 main_v79 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v77 main_v79 main_v80 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v70 main_v80 main_v81 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x1x1024x1024, .f32⟩) main_call6_v0) (broadcastInDim S8x1x1024x1024 ![] bcast_S_S8x1x1024x1024),
    TRef.binary (TRef.of (T := ⟨S8x1x1024x1024, .f32⟩) main_v81) (TRef.of (T := ⟨S8x1x1024x1024, .f32⟩) main_call6_v0) (TRef.of (T := ⟨S8x1x1024x1024, .f32⟩) main_v82) maximumf,
    binary main_v65 main_v82 main_v83 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v82 main_v83 main_v84 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x1x1024x1024, .f32⟩) main_call7_v0) (broadcastInDim S8x1x1024x1024 ![] bcast_S_S8x1x1024x1024),
    TRef.binary (TRef.of (T := ⟨S8x1x1024x1024, .f32⟩) main_v84) (TRef.of (T := ⟨S8x1x1024x1024, .f32⟩) main_call7_v0) (TRef.of (T := ⟨S8x1x1024x1024, .f32⟩) main_v85) maximumf,
    binary main_v65 main_v85 main_v86 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segA4` writes. -/
abbrev segA4_W : List (Ref sig .tc) := [main_cst_21, main_v66, main_v67, main_cst_22, main_v68, main_v69, main_v70, main_cst_23, main_v71, main_v72, main_cst_24, main_v73, main_v74, main_v75, main_cst_25, main_v76, main_v77, main_cst_26, main_v78, main_v79, main_v80, main_v81, main_call6_cst, main_call6_v0, main_v82, main_v83, main_v84, main_call7_cst, main_call7_v0, main_v85, main_v86]

set_option maxHeartbeats 1000000 in
theorem segA4_writes : (segA4 : List (HloOp τ sig (Elt F))).Forall fun op => op.writes ⊆ (segA4_W.map (Proc.devRef (τ := τ) .tc)).toFinset := by
  simp only [segA4, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segA4` does not write keeps its contents through it. -/
theorem segA4_keep (V : Valuation τ sig (Elt F)) (r : Ref sig .tc) (h : r ∉ segA4_W) :
    after segA4 V (Proc.devRef .tc r) = V (Proc.devRef .tc r) :=
  after_of_writes_sub segA4 V segA4_writes h

set_option maxHeartbeats 1000000 in
theorem segA4_sub : (segA4 : List (HloOp τ sig (Elt F))).Forall fun op => op.bufs ⊆ tcRefs τ sig := by
  simp only [segA4, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segA4_fresh : (segA4 : List (HloOp τ sig (Elt F))).Forall fun op => op.fresh = ∅ := by
  simp only [segA4, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The target's skeleton, start: relu (x − open x). -/
def segB1 : List (HloOp τ sig (Elt F)) :=
  [ nullary main_cst_27 (constant S_ .f32 0x7F800000#32),
    unary main_cst_27 main_v87 (broadcastInDim S_ ![] bcast_S_S_ : (⟨S_, .f32⟩ : BufTy).Contents (Elt F) → (⟨S_, .f32⟩ : BufTy).Contents (Elt F)),
    binary main_arg1 main_v87 main_v88 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_28 (constant S_ .f32 0x7F800000#32),
    unary main_cst_28 main_v89 (broadcastInDim S_ ![] bcast_S_S_ : (⟨S_, .f32⟩ : BufTy).Contents (Elt F) → (⟨S_, .f32⟩ : BufTy).Contents (Elt F)),
    binary main_arg1 main_v89 main_v90 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v88 main_v90 main_v91 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_29 (constant S_ .f32 0xFF800000#32),
    unary main_cst_29 main_v92 (broadcastInDim S_ ![] bcast_S_S_ : (⟨S_, .f32⟩ : BufTy).Contents (Elt F) → (⟨S_, .f32⟩ : BufTy).Contents (Elt F)),
    binary main_v91 main_v92 main_v93 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_30 (constant S_ .f32 0xFF800000#32),
    unary main_cst_30 main_v94 (broadcastInDim S_ ![] bcast_S_S_ : (⟨S_, .f32⟩ : BufTy).Contents (Elt F) → (⟨S_, .f32⟩ : BufTy).Contents (Elt F)),
    binary main_v91 main_v94 main_v95 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v93 main_v95 main_v96 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_arg1 main_v96 main_v97 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x1x1024x1024, .f32⟩) main_call8_v0) (broadcastInDim S8x1x1024x1024 ![] bcast_S_S8x1x1024x1024),
    TRef.binary (TRef.of (T := ⟨S8x1x1024x1024, .f32⟩) main_v97) (TRef.of (T := ⟨S8x1x1024x1024, .f32⟩) main_call8_v0) (TRef.of (T := ⟨S8x1x1024x1024, .f32⟩) main_v98) maximumf ]

/-- The buffers `segB1` writes. -/
abbrev segB1_W : List (Ref sig .tc) := [main_cst_27, main_v87, main_v88, main_cst_28, main_v89, main_v90, main_v91, main_cst_29, main_v92, main_v93, main_cst_30, main_v94, main_v95, main_v96, main_v97, main_call8_cst, main_call8_v0, main_v98]

set_option maxHeartbeats 1000000 in
theorem segB1_writes : (segB1 : List (HloOp τ sig (Elt F))).Forall fun op => op.writes ⊆ (segB1_W.map (Proc.devRef (τ := τ) .tc)).toFinset := by
  simp only [segB1, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segB1` does not write keeps its contents through it. -/
theorem segB1_keep (V : Valuation τ sig (Elt F)) (r : Ref sig .tc) (h : r ∉ segB1_W) :
    after segB1 V (Proc.devRef .tc r) = V (Proc.devRef .tc r) :=
  after_of_writes_sub segB1 V segB1_writes h

set_option maxHeartbeats 1000000 in
theorem segB1_sub : (segB1 : List (HloOp τ sig (Elt F))).Forall fun op => op.bufs ⊆ tcRefs τ sig := by
  simp only [segB1, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub ..⟩

set_option maxHeartbeats 1000000 in
theorem segB1_fresh : (segB1 : List (HloOp τ sig (Elt F))).Forall fun op => op.fresh = ∅ := by
  simp only [segB1, List.Forall]
  exact ⟨rfl, rfl, rfl, rfl, rfl, rfl, rfl, rfl, rfl, rfl, rfl, rfl, rfl, rfl, rfl, rfl, rfl, rfl⟩

set_option maxHeartbeats 1000000 in
/-- The target's skeleton, round 1. -/
def segB2 : List (HloOp τ sig (Elt F)) :=
  [ nullary main_cst_31 (constant S_ .f32 0x7F800000#32),
    unary main_cst_31 main_v99 (broadcastInDim S_ ![] bcast_S_S_ : (⟨S_, .f32⟩ : BufTy).Contents (Elt F) → (⟨S_, .f32⟩ : BufTy).Contents (Elt F)),
    binary main_arg1 main_v99 main_v100 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_32 (constant S_ .f32 0x7F800000#32),
    unary main_cst_32 main_v101 (broadcastInDim S_ ![] bcast_S_S_ : (⟨S_, .f32⟩ : BufTy).Contents (Elt F) → (⟨S_, .f32⟩ : BufTy).Contents (Elt F)),
    binary main_arg1 main_v101 main_v102 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v100 main_v102 main_v103 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_33 (constant S_ .f32 0x7F800000#32),
    unary main_cst_33 main_v104 (broadcastInDim S_ ![] bcast_S_S_ : (⟨S_, .f32⟩ : BufTy).Contents (Elt F) → (⟨S_, .f32⟩ : BufTy).Contents (Elt F)),
    binary main_v103 main_v104 main_v105 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_34 (constant S_ .f32 0x7F800000#32),
    unary main_cst_34 main_v106 (broadcastInDim S_ ![] bcast_S_S_ : (⟨S_, .f32⟩ : BufTy).Contents (Elt F) → (⟨S_, .f32⟩ : BufTy).Contents (Elt F)),
    binary main_v103 main_v106 main_v107 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v105 main_v107 main_v108 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_35 (constant S_ .f32 0xFF800000#32),
    unary main_cst_35 main_v109 (broadcastInDim S_ ![] bcast_S_S_ : (⟨S_, .f32⟩ : BufTy).Contents (Elt F) → (⟨S_, .f32⟩ : BufTy).Contents (Elt F)),
    binary main_v108 main_v109 main_v110 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_36 (constant S_ .f32 0xFF800000#32),
    unary main_cst_36 main_v111 (broadcastInDim S_ ![] bcast_S_S_ : (⟨S_, .f32⟩ : BufTy).Contents (Elt F) → (⟨S_, .f32⟩ : BufTy).Contents (Elt F)),
    binary main_v108 main_v111 main_v112 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v110 main_v112 main_v113 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v103 main_v113 main_v114 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x1x1024x1024, .f32⟩) main_call9_v0) (broadcastInDim S8x1x1024x1024 ![] bcast_S_S8x1x1024x1024),
    TRef.binary (TRef.of (T := ⟨S8x1x1024x1024, .f32⟩) main_v114) (TRef.of (T := ⟨S8x1x1024x1024, .f32⟩) main_call9_v0) (TRef.of (T := ⟨S8x1x1024x1024, .f32⟩) main_v115) maximumf,
    binary main_v98 main_v115 main_v116 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v115 main_v116 main_v117 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8x1x1024x1024, .f32⟩) main_call10_v0) (broadcastInDim S8x1x1024x1024 ![] bcast_S_S8x1x1024x1024),
    TRef.binary (TRef.of (T := ⟨S8x1x1024x1024, .f32⟩) main_v117) (TRef.of (T := ⟨S8x1x1024x1024, .f32⟩) main_call10_v0) (TRef.of (T := ⟨S8x1x1024x1024, .f32⟩) main_v118) maximumf,
    binary main_v98 main_v118 main_v119 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segB2` writes. -/
abbrev segB2_W : List (Ref sig .tc) := [main_cst_31, main_v99, main_v100, main_cst_32, main_v101, main_v102, main_v103, main_cst_33, main_v104, main_v105, main_cst_34, main_v106, main_v107, main_v108, main_cst_35, main_v109, main_v110, main_cst_36, main_v111, main_v112, main_v113, main_v114, main_call9_cst, main_call9_v0, main_v115, main_v116, main_v117, main_call10_cst, main_call10_v0, main_v118, main_v119]

set_option maxHeartbeats 1000000 in
theorem segB2_writes : (segB2 : List (HloOp τ sig (Elt F))).Forall fun op => op.writes ⊆ (segB2_W.map (Proc.devRef (τ := τ) .tc)).toFinset := by
  simp only [segB2, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segB2` does not write keeps its contents through it. -/
theorem segB2_keep (V : Valuation τ sig (Elt F)) (r : Ref sig .tc) (h : r ∉ segB2_W) :
    after segB2 V (Proc.devRef .tc r) = V (Proc.devRef .tc r) :=
  after_of_writes_sub segB2 V segB2_writes h

set_option maxHeartbeats 1000000 in
theorem segB2_sub : (segB2 : List (HloOp τ sig (Elt F))).Forall fun op => op.bufs ⊆ tcRefs τ sig := by
  simp only [segB2, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segB2_fresh : (segB2 : List (HloOp τ sig (Elt F))).Forall fun op => op.fresh = ∅ := by
  simp only [segB2, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The target's skeleton, round 2. -/
def segB3 : List (HloOp τ sig (Elt F)) :=
  [ nullary main_cst_37 (constant S_ .f32 0x7F800000#32),
    unary main_cst_37 main_v120 (broadcastInDim S_ ![] bcast_S_S_ : (⟨S_, .f32⟩ : BufTy).Contents (Elt F) → (⟨S_, .f32⟩ : BufTy).Contents (Elt F)),
    binary main_v103 main_v120 main_v121 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_38 (constant S_ .f32 0x7F800000#32),
    unary main_cst_38 main_v122 (broadcastInDim S_ ![] bcast_S_S_ : (⟨S_, .f32⟩ : BufTy).Contents (Elt F) → (⟨S_, .f32⟩ : BufTy).Contents (Elt F)),
    binary main_v103 main_v122 main_v123 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v121 main_v123 main_v124 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_39 (constant S_ .f32 0x7F800000#32),
    unary main_cst_39 main_v125 (broadcastInDim S_ ![] bcast_S_S_ : (⟨S_, .f32⟩ : BufTy).Contents (Elt F) → (⟨S_, .f32⟩ : BufTy).Contents (Elt F)),
    binary main_v124 main_v125 main_v126 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_40 (constant S_ .f32 0x7F800000#32),
    unary main_cst_40 main_v127 (broadcastInDim S_ ![] bcast_S_S_ : (⟨S_, .f32⟩ : BufTy).Contents (Elt F) → (⟨S_, .f32⟩ : BufTy).Contents (Elt F)),
    binary main_v124 main_v127 main_v128 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v126 main_v128 main_v129 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_41 (constant S_ .f32 0xFF800000#32),
    unary main_cst_41 main_v130 (broadcastInDim S_ ![] bcast_S_S_ : (⟨S_, .f32⟩ : BufTy).Contents (Elt F) → (⟨S_, .f32⟩ : BufTy).Contents (Elt F)),
    binary main_v129 main_v130 main_v131 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_42 (constant S_ .f32 0xFF800000#32),
    unary main_cst_42 main_v132 (broadcastInDim S_ ![] bcast_S_S_ : (⟨S_, .f32⟩ : BufTy).Contents (Elt F) → (⟨S_, .f32⟩ : BufTy).Contents (Elt F)),
    binary main_v129 main_v132 main_v133 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v131 main_v133 main_v134 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v124 main_v134 main_v135 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S8x1x1024x1024, .f32⟩) main_call11_v0) (broadcastInDim S8x1x1024x1024 ![] bcast_S_S8x1x1024x1024),
    TRef.binary (TRef.of (T := ⟨S8x1x1024x1024, .f32⟩) main_v135) (TRef.of (T := ⟨S8x1x1024x1024, .f32⟩) main_call11_v0) (TRef.of (T := ⟨S8x1x1024x1024, .f32⟩) main_v136) maximumf,
    binary main_v119 main_v136 main_v137 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v136 main_v137 main_v138 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8x1x1024x1024, .f32⟩) main_call12_v0) (broadcastInDim S8x1x1024x1024 ![] bcast_S_S8x1x1024x1024),
    TRef.binary (TRef.of (T := ⟨S8x1x1024x1024, .f32⟩) main_v138) (TRef.of (T := ⟨S8x1x1024x1024, .f32⟩) main_call12_v0) (TRef.of (T := ⟨S8x1x1024x1024, .f32⟩) main_v139) maximumf,
    binary main_v119 main_v139 main_v140 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segB3` writes. -/
abbrev segB3_W : List (Ref sig .tc) := [main_cst_37, main_v120, main_v121, main_cst_38, main_v122, main_v123, main_v124, main_cst_39, main_v125, main_v126, main_cst_40, main_v127, main_v128, main_v129, main_cst_41, main_v130, main_v131, main_cst_42, main_v132, main_v133, main_v134, main_v135, main_call11_cst, main_call11_v0, main_v136, main_v137, main_v138, main_call12_cst, main_call12_v0, main_v139, main_v140]

set_option maxHeartbeats 1000000 in
theorem segB3_writes : (segB3 : List (HloOp τ sig (Elt F))).Forall fun op => op.writes ⊆ (segB3_W.map (Proc.devRef (τ := τ) .tc)).toFinset := by
  simp only [segB3, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segB3` does not write keeps its contents through it. -/
theorem segB3_keep (V : Valuation τ sig (Elt F)) (r : Ref sig .tc) (h : r ∉ segB3_W) :
    after segB3 V (Proc.devRef .tc r) = V (Proc.devRef .tc r) :=
  after_of_writes_sub segB3 V segB3_writes h

set_option maxHeartbeats 1000000 in
theorem segB3_sub : (segB3 : List (HloOp τ sig (Elt F))).Forall fun op => op.bufs ⊆ tcRefs τ sig := by
  simp only [segB3, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segB3_fresh : (segB3 : List (HloOp τ sig (Elt F))).Forall fun op => op.fresh = ∅ := by
  simp only [segB3, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The target's skeleton, round 3. -/
def segB4 : List (HloOp τ sig (Elt F)) :=
  [ nullary main_cst_43 (constant S_ .f32 0x7F800000#32),
    unary main_cst_43 main_v141 (broadcastInDim S_ ![] bcast_S_S_ : (⟨S_, .f32⟩ : BufTy).Contents (Elt F) → (⟨S_, .f32⟩ : BufTy).Contents (Elt F)),
    binary main_v124 main_v141 main_v142 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_44 (constant S_ .f32 0x7F800000#32),
    unary main_cst_44 main_v143 (broadcastInDim S_ ![] bcast_S_S_ : (⟨S_, .f32⟩ : BufTy).Contents (Elt F) → (⟨S_, .f32⟩ : BufTy).Contents (Elt F)),
    binary main_v124 main_v143 main_v144 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v142 main_v144 main_v145 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_45 (constant S_ .f32 0x7F800000#32),
    unary main_cst_45 main_v146 (broadcastInDim S_ ![] bcast_S_S_ : (⟨S_, .f32⟩ : BufTy).Contents (Elt F) → (⟨S_, .f32⟩ : BufTy).Contents (Elt F)),
    binary main_v145 main_v146 main_v147 ((fun x v => Host.reduceWindow FloatOps.minimumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_46 (constant S_ .f32 0x7F800000#32),
    unary main_cst_46 main_v148 (broadcastInDim S_ ![] bcast_S_S_ : (⟨S_, .f32⟩ : BufTy).Contents (Elt F) → (⟨S_, .f32⟩ : BufTy).Contents (Elt F)),
    binary main_v145 main_v148 main_v149 ((fun x v => Host.reduceWindow FloatOps.minimumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v147 main_v149 main_v150 (minimumf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_47 (constant S_ .f32 0xFF800000#32),
    unary main_cst_47 main_v151 (broadcastInDim S_ ![] bcast_S_S_ : (⟨S_, .f32⟩ : BufTy).Contents (Elt F) → (⟨S_, .f32⟩ : BufTy).Contents (Elt F)),
    binary main_v150 main_v151 main_v152 ((fun x v => Host.reduceWindow FloatOps.maximumf ![1, 1, 3, 1] ![1, 1, 1, 1] ![0, 0, 1, 0] ![0, 0, 1, 0] x v reduceWindows_S8x1x1024x1024_S8x1x1024x1024_w1s1p0_0_w1s1p0_0_w3s1p1_1_w1s1p0_0 h_S_) : (⟨S8x1x1024x1024, .f32⟩ : BufTy).Contents (Elt F) → (⟨S_, .f32⟩ : BufTy).Contents (Elt F) → (⟨S8x1x1024x1024, .f32⟩ : BufTy).Contents (Elt F)),
    nullary main_cst_48 (constant S_ .f32 0xFF800000#32),
    unary main_cst_48 main_v153 (broadcastInDim S_ ![] bcast_S_S_ : (⟨S_, .f32⟩ : BufTy).Contents (Elt F) → (⟨S_, .f32⟩ : BufTy).Contents (Elt F)),
    binary main_v150 main_v153 main_v154 ((fun x v => Host.reduceWindow FloatOps.maximumf ![1, 1, 1, 3] ![1, 1, 1, 1] ![0, 0, 0, 1] ![0, 0, 0, 1] x v reduceWindows_S8x1x1024x1024_S8x1x1024x1024_w1s1p0_0_w1s1p0_0_w1s1p0_0_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v152 main_v154 main_v155 (maximumf : (⟨S8x1x1024x1024, .f32⟩ : BufTy).Contents (Elt F) → (⟨S8x1x1024x1024, .f32⟩ : BufTy).Contents (Elt F) → (⟨S8x1x1024x1024, .f32⟩ : BufTy).Contents (Elt F)),
    binary main_v145 main_v155 main_v156 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S8x1x1024x1024, .f32⟩) main_call13_v0) (broadcastInDim S8x1x1024x1024 ![] bcast_S_S8x1x1024x1024),
    TRef.binary (TRef.of (T := ⟨S8x1x1024x1024, .f32⟩) main_v156) (TRef.of (T := ⟨S8x1x1024x1024, .f32⟩) main_call13_v0) (TRef.of (T := ⟨S8x1x1024x1024, .f32⟩) main_v157) maximumf,
    binary main_v140 main_v157 main_v158 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v157 main_v158 main_v159 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S8x1x1024x1024, .f32⟩) main_call14_v0) (broadcastInDim S8x1x1024x1024 ![] bcast_S_S8x1x1024x1024),
    TRef.binary (TRef.of (T := ⟨S8x1x1024x1024, .f32⟩) main_v159) (TRef.of (T := ⟨S8x1x1024x1024, .f32⟩) main_call14_v0) (TRef.of (T := ⟨S8x1x1024x1024, .f32⟩) main_v160) maximumf,
    binary main_v140 main_v160 main_v161 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The buffers `segB4` writes. -/
abbrev segB4_W : List (Ref sig .tc) := [main_cst_43, main_v141, main_v142, main_cst_44, main_v143, main_v144, main_v145, main_cst_45, main_v146, main_v147, main_cst_46, main_v148, main_v149, main_v150, main_cst_47, main_v151, main_v152, main_cst_48, main_v153, main_v154, main_v155, main_v156, main_call13_cst, main_call13_v0, main_v157, main_v158, main_v159, main_call14_cst, main_call14_v0, main_v160, main_v161]

set_option maxHeartbeats 1000000 in
theorem segB4_writes : (segB4 : List (HloOp τ sig (Elt F))).Forall fun op => op.writes ⊆ (segB4_W.map (Proc.devRef (τ := τ) .tc)).toFinset := by
  simp only [segB4, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segB4` does not write keeps its contents through it. -/
theorem segB4_keep (V : Valuation τ sig (Elt F)) (r : Ref sig .tc) (h : r ∉ segB4_W) :
    after segB4 V (Proc.devRef .tc r) = V (Proc.devRef .tc r) :=
  after_of_writes_sub segB4 V segB4_writes h

set_option maxHeartbeats 1000000 in
theorem segB4_sub : (segB4 : List (HloOp τ sig (Elt F))).Forall fun op => op.bufs ⊆ tcRefs τ sig := by
  simp only [segB4, List.Forall]
  exact ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxHeartbeats 1000000 in
theorem segB4_fresh : (segB4 : List (HloOp τ sig (Elt F))).Forall fun op => op.fresh = ∅ := by
  simp only [segB4, List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 1000000 in
/-- The four totals and the closing arithmetic. -/
def segT : List (HloOp τ sig (Elt F)) :=
  [ binary main_v86 main_arg1 main_v162 (mulf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_49 (constant S_ .f32 0x00000000#32),
    binary main_v162 main_cst_49 main_v163 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_50 (constant S_ .f32 0x3F800000#32),
    binary main_v163 main_cst_50 main_v164 (addf : (⟨S_, .f32⟩ : BufTy).Contents (Elt F) → (⟨S_, .f32⟩ : BufTy).Contents (Elt F) → (⟨S_, .f32⟩ : BufTy).Contents (Elt F)),
    nullary main_cst_51 (constant S_ .f32 0x00000000#32),
    binary main_v86 main_cst_51 main_v165 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_52 (constant S_ .f32 0x3F800000#32),
    binary main_v165 main_cst_52 main_v166 (addf : (⟨S_, .f32⟩ : BufTy).Contents (Elt F) → (⟨S_, .f32⟩ : BufTy).Contents (Elt F) → (⟨S_, .f32⟩ : BufTy).Contents (Elt F)),
    binary main_v164 main_v166 main_v167 (Host.divf : (⟨S_, .f32⟩ : BufTy).Contents (Elt F) → (⟨S_, .f32⟩ : BufTy).Contents (Elt F) → (⟨S_, .f32⟩ : BufTy).Contents (Elt F)),
    binary main_v161 main_v11 main_v168 (mulf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_53 (constant S_ .f32 0x00000000#32),
    binary main_v168 main_cst_53 main_v169 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_54 (constant S_ .f32 0x3F800000#32),
    binary main_v169 main_cst_54 main_v170 (addf : (⟨S_, .f32⟩ : BufTy).Contents (Elt F) → (⟨S_, .f32⟩ : BufTy).Contents (Elt F) → (⟨S_, .f32⟩ : BufTy).Contents (Elt F)),
    nullary main_cst_55 (constant S_ .f32 0x00000000#32),
    binary main_v161 main_cst_55 main_v171 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_56 (constant S_ .f32 0x3F800000#32),
    binary main_v171 main_cst_56 main_v172 (addf : (⟨S_, .f32⟩ : BufTy).Contents (Elt F) → (⟨S_, .f32⟩ : BufTy).Contents (Elt F) → (⟨S_, .f32⟩ : BufTy).Contents (Elt F)),
    binary main_v170 main_v172 main_v173 (Host.divf : (⟨S_, .f32⟩ : BufTy).Contents (Elt F) → (⟨S_, .f32⟩ : BufTy).Contents (Elt F) → (⟨S_, .f32⟩ : BufTy).Contents (Elt F)),
    binary main_v167 main_v173 main_v174 (mulf : (⟨S_, .f32⟩ : BufTy).Contents (Elt F) → (⟨S_, .f32⟩ : BufTy).Contents (Elt F) → (⟨S_, .f32⟩ : BufTy).Contents (Elt F)),
    nullary main_cst_57 (constant S_ .f32 0x40000000#32),
    binary main_cst_57 main_v174 main_v175 (mulf : (⟨S_, .f32⟩ : BufTy).Contents (Elt F) → (⟨S_, .f32⟩ : BufTy).Contents (Elt F) → (⟨S_, .f32⟩ : BufTy).Contents (Elt F)),
    binary main_v167 main_v173 main_v176 (addf : (⟨S_, .f32⟩ : BufTy).Contents (Elt F) → (⟨S_, .f32⟩ : BufTy).Contents (Elt F) → (⟨S_, .f32⟩ : BufTy).Contents (Elt F)),
    binary main_v175 main_v176 main_v177 (Host.divf : (⟨S_, .f32⟩ : BufTy).Contents (Elt F) → (⟨S_, .f32⟩ : BufTy).Contents (Elt F) → (⟨S_, .f32⟩ : BufTy).Contents (Elt F)),
    nullary main_cst_58 (constant S_ .f32 0x3F800000#32),
    binary main_cst_58 main_v177 main_v178 (subf : (⟨S_, .f32⟩ : BufTy).Contents (Elt F) → (⟨S_, .f32⟩ : BufTy).Contents (Elt F) → (⟨S_, .f32⟩ : BufTy).Contents (Elt F)) ]

/-- The buffers `segT` writes. -/
abbrev segT_W : List (Ref sig .tc) := [main_v162, main_cst_49, main_v163, main_cst_50, main_v164, main_cst_51, main_v165, main_cst_52, main_v166, main_v167, main_v168, main_cst_53, main_v169, main_cst_54, main_v170, main_cst_55, main_v171, main_cst_56, main_v172, main_v173, main_v174, main_cst_57, main_v175, main_v176, main_v177, main_cst_58, main_v178]

set_option maxHeartbeats 1000000 in
theorem segT_writes : (segT : List (HloOp τ sig (Elt F))).Forall fun op => op.writes ⊆ (segT_W.map (Proc.devRef (τ := τ) .tc)).toFinset := by
  simp only [segT, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `segT` does not write keeps its contents through it. -/
theorem segT_keep (V : Valuation τ sig (Elt F)) (r : Ref sig .tc) (h : r ∉ segT_W) :
    after segT V (Proc.devRef .tc r) = V (Proc.devRef .tc r) :=
  after_of_writes_sub segT V segT_writes h

set_option maxHeartbeats 1000000 in
theorem segT_sub : (segT : List (HloOp τ sig (Elt F))).Forall fun op => op.bufs ⊆ tcRefs τ sig := by
  simp only [segT, List.Forall]
  exact ⟨binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., binary_bufs_sub .., nullary_bufs_sub .., binary_bufs_sub ..⟩

set_option maxHeartbeats 1000000 in
theorem segT_fresh : (segT : List (HloOp τ sig (Elt F))).Forall fun op => op.fresh = ∅ := by
  simp only [segT, List.Forall]
  exact ⟨rfl, rfl, rfl, rfl, rfl, rfl, rfl, rfl, rfl, rfl, rfl, rfl, rfl, rfl, rfl, rfl, rfl, rfl, rfl, rfl, rfl, rfl, rfl, rfl, rfl, rfl, rfl⟩

/-- @main's operations, in order. -/
def ops : List (HloOp τ sig (Elt F)) :=
  segP ++ (segA1 ++ (segA2 ++ (segA3 ++ (segA4 ++ (segB1 ++ (segB2 ++ (segB3 ++ (segB4 ++ (segT)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append segP_sub (forall_append segA1_sub (forall_append segA2_sub (forall_append segA3_sub (forall_append segA4_sub (forall_append segB1_sub (forall_append segB2_sub (forall_append segB3_sub (forall_append segB4_sub (segT_sub)))))))))

theorem ops_fresh : ∀ op ∈ (ops : List (HloOp τ sig (Elt F))), op.fresh = ∅ :=
  List.forall_iff_forall_mem.mp (forall_append segP_fresh (forall_append segA1_fresh (forall_append segA2_fresh (forall_append segA3_fresh (forall_append segA4_fresh (forall_append segB1_fresh (forall_append segB2_fresh (forall_append segB3_fresh (forall_append segB4_fresh (segT_fresh))))))))))

end Cert.RefRun

end
-- ==== Proof.Spec.lean ====
/-
  The mathematics both programs compute, written once.

  An image is a 1024 × 1024 array of extended reals; the batch holds eight of them.  A 3-wide
  sliding minimum (maximum) along an axis, with the identity of the operation beyond the border,
  is spelled in two ways: on one image, by laying a border row (column) on each side and
  taking the minimum (maximum) of the three shifted copies; on the whole batch, by a window
  reduction with padding one on that axis.  Erosion is the minimum of the two sliding minima,
  dilation the maximum of the two sliding maxima, opening is dilation after erosion, and the
  soft skeleton accumulates, over three erosions, the part of each eroded image its opening
  removes:  skel ← skel + relu (δ − skel · δ),  δ = relu (img − open img).
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- One image. -/
abbrev I2 : Shape := ⟨2, ![1024, 1024]⟩
/-- The batch of eight one-channel images. -/
abbrev I4 : Shape := ⟨4, ![8, 1, 1024, 1024]⟩
/-- The shape of a single number. -/
abbrev I0 : Shape := ⟨0, ![]⟩

abbrev Img := FVec Ideal I2 .f32
abbrev Batch := FVec Ideal I4 .f32

/-- Image `b` of the batch. -/
def imageOf (X : Batch) (b : Fin 8) : Img := fun j => X (ix4 b 0 (j 0) (j 1))

/-! ## One image: border, three shifted copies -/

theorem cat_rows_a : Shape.Concatenates [⟨2, ![1, 1024]⟩, I2] ⟨2, ![1025, 1024]⟩ 0 := by decide
theorem cat_rows_b : Shape.Concatenates [⟨2, ![1025, 1024]⟩, ⟨2, ![1, 1024]⟩] ⟨2, ![1026, 1024]⟩ 0 := by decide
theorem cat_cols_a : Shape.Concatenates [⟨2, ![1024, 1]⟩, I2] ⟨2, ![1024, 1025]⟩ 1 := by decide
theorem cat_cols_b : Shape.Concatenates [⟨2, ![1024, 1025]⟩, ⟨2, ![1024, 1]⟩] ⟨2, ![1024, 1026]⟩ 1 := by decide

/-- A border row of `pad` above and below the image. -/
def borderRows (pad : Ideal .f32) (x : Img) : FVec Ideal ⟨2, ![1026, 1024]⟩ .f32 :=
  concatenate ⟨2, ![1026, 1024]⟩ 0
    [⟨⟨2, ![1025, 1024]⟩, concatenate ⟨2, ![1025, 1024]⟩ 0
        [⟨⟨2, ![1, 1024]⟩, broadcast ⟨2, ![1, 1024]⟩ pad⟩, ⟨I2, x⟩] cat_rows_a⟩,
     ⟨⟨2, ![1, 1024]⟩, broadcast ⟨2, ![1, 1024]⟩ pad⟩] cat_rows_b

/-- A border column of `pad` left and right of the image. -/
def borderCols (pad : Ideal .f32) (x : Img) : FVec Ideal ⟨2, ![1024, 1026]⟩ .f32 :=
  concatenate ⟨2, ![1024, 1026]⟩ 1
    [⟨⟨2, ![1024, 1025]⟩, concatenate ⟨2, ![1024, 1025]⟩ 1
        [⟨⟨2, ![1024, 1]⟩, broadcast ⟨2, ![1024, 1]⟩ pad⟩, ⟨I2, x⟩] cat_cols_a⟩,
     ⟨⟨2, ![1024, 1]⟩, broadcast ⟨2, ![1024, 1]⟩ pad⟩] cat_cols_b

/-- The row above, the row itself and the row below, combined by `f`. -/
def slideRows (f : Img → Img → Img) (pad : Ideal .f32) (x : Img) : Img :=
  f (f (extractStridedSlice I2 ![0, 0] (borderRows pad x) (by decide))
       (extractStridedSlice I2 ![1, 0] (borderRows pad x) (by decide)))
    (extractStridedSlice I2 ![2, 0] (borderRows pad x) (by decide))

/-- The column to the left, the column itself and the column to the right, combined by `f`. -/
def slideCols (f : Img → Img → Img) (pad : Ideal .f32) (x : Img) : Img :=
  f (f (extractStridedSlice I2 ![0, 0] (borderCols pad x) (by decide))
       (extractStridedSlice I2 ![0, 1] (borderCols pad x) (by decide)))
    (extractStridedSlice I2 ![0, 2] (borderCols pad x) (by decide))

def erode (top : Ideal .f32) (x : Img) : Img :=
  minimumf (slideRows minimumf top x) (slideCols minimumf top x)

def dilate (bot : Ideal .f32) (x : Img) : Img :=
  maximumf (slideRows maximumf bot x) (slideCols maximumf bot x)

def opening (top bot : Ideal .f32) (x : Img) : Img := dilate bot (erode top x)

/-- One round of the skeleton: erode the image, and add to the skeleton what the opening of the
    eroded image removes and the skeleton does not yet hold. -/
def skelStep (top bot : Ideal .f32) (z : Img) (p : Img × Img) : Img × Img :=
  (erode top p.1,
   addf p.2 (maximumf (subf (maximumf (subf (erode top p.1) (opening top bot (erode top p.1))) z)
                            (mulf p.2 (maximumf (subf (erode top p.1) (opening top bot (erode top p.1))) z))) z))

/-- The soft skeleton of one image, three rounds. -/
def skel (top bot : Ideal .f32) (z : Img) (x : Img) : Img :=
  (skelStep top bot z (skelStep top bot z (skelStep top bot z
    (x, maximumf (subf x (opening top bot x)) z)))).2

/-! ## The batch: window reductions -/

def slideRowsB (f : Ideal .f32 → Ideal .f32 → Ideal .f32) (init : FVec Ideal I0 .f32) (X : Batch) : Batch :=
  Host.reduceWindow f ![1, 1, 3, 1] ![1, 1, 1, 1] ![0, 0, 1, 0] ![0, 0, 1, 0] X init (by decide) (by decide)

def slideColsB (f : Ideal .f32 → Ideal .f32 → Ideal .f32) (init : FVec Ideal I0 .f32) (X : Batch) : Batch :=
  Host.reduceWindow f ![1, 1, 1, 3] ![1, 1, 1, 1] ![0, 0, 0, 1] ![0, 0, 0, 1] X init (by decide) (by decide)

def erodeB (top : FVec Ideal I0 .f32) (X : Batch) : Batch :=
  minimumf (slideRowsB FloatOps.minimumf top X) (slideColsB FloatOps.minimumf top X)

def dilateB (bot : FVec Ideal I0 .f32) (X : Batch) : Batch :=
  maximumf (slideRowsB FloatOps.maximumf bot X) (slideColsB FloatOps.maximumf bot X)

def openingB (top bot : FVec Ideal I0 .f32) (X : Batch) : Batch := dilateB bot (erodeB top X)

def skelStepB (top bot : FVec Ideal I0 .f32) (Z : Batch) (p : Batch × Batch) : Batch × Batch :=
  (erodeB top p.1,
   addf p.2 (maximumf (subf (maximumf (subf (erodeB top p.1) (openingB top bot (erodeB top p.1))) Z)
                            (mulf p.2 (maximumf (subf (erodeB top p.1) (openingB top bot (erodeB top p.1))) Z))) Z))

def skelB (top bot : FVec Ideal I0 .f32) (Z : Batch) (X : Batch) : Batch :=
  (skelStepB top bot Z (skelStepB top bot Z (skelStepB top bot Z
    (X, maximumf (subf X (openingB top bot X)) Z)))).2

/-! ## The whole result

Four sums — Σ skel(p)·t, Σ skel(p), Σ skel(t)·p, Σ skel(t) — over every entry of the batch, where p is the
prediction, passed through the logistic function when some entry lies outside [0, 1], and t the target;
then  1 − 2·(P·S)/(P + S)  with  P = (Σ skel(p)·t + 1)/(Σ skel(p) + 1),  S = (Σ skel(t)·p + 1)/(Σ skel(t) + 1). -/

/-- The last step, on the four sums. -/
def dice (a b c d : FVec Ideal I0 .f32) : FVec Ideal I0 .f32 :=
  subf (constant I0 .f32 0x3F800000#32)
    (Host.divf (mulf (constant I0 .f32 0x40000000#32)
        (mulf (Host.divf (addf a (constant I0 .f32 0x3F800000#32)) (addf b (constant I0 .f32 0x3F800000#32)))
              (Host.divf (addf c (constant I0 .f32 0x3F800000#32)) (addf d (constant I0 .f32 0x3F800000#32)))))
      (addf (Host.divf (addf a (constant I0 .f32 0x3F800000#32)) (addf b (constant I0 .f32 0x3F800000#32)))
            (Host.divf (addf c (constant I0 .f32 0x3F800000#32)) (addf d (constant I0 .f32 0x3F800000#32)))))

/-- Whether some entry of the prediction is below 0 or above 1. -/
def outside (x0 : Batch) : IVec I0 1 :=
  ori (cmpf .olt (Host.reduce (axes := [0, 1, 2, 3]) FloatOps.minimumf x0 (constant (F := Ideal) I0 .f32 0x7F800000#32) (by decide) (by decide))
                 (constant I0 .f32 0x00000000#32))
      (cmpf .ogt (Host.reduce (axes := [0, 1, 2, 3]) FloatOps.maximumf x0 (constant (F := Ideal) I0 .f32 0xFF800000#32) (by decide) (by decide))
                 (constant I0 .f32 0x3F800000#32))

/-- The logistic function as the host spells it: 1 / (1 + exp (−x)). -/
def sigmoidB (x0 : Batch) : Batch :=
  Host.divf (broadcastInDim I4 ![] (by decide) (constant (F := Ideal) I0 .f32 0x3F800000#32))
    (addf (broadcastInDim I4 ![] (by decide) (constant (F := Ideal) I0 .f32 0x3F800000#32)) (Host.exp (Host.negf x0)))

/-- The prediction the skeleton is taken of. -/
def predB (x0 : Batch) : Batch :=
  select (broadcastInDim I4 ![] (by decide) (outside x0)) (sigmoidB x0) x0

abbrev topB : FVec Ideal I0 .f32 := broadcastInDim I0 ![] (by decide) (constant (F := Ideal) I0 .f32 0x7F800000#32)
abbrev botB : FVec Ideal I0 .f32 := broadcastInDim I0 ![] (by decide) (constant (F := Ideal) I0 .f32 0xFF800000#32)
abbrev zeroB : Batch := broadcastInDim I4 ![] (by decide) (constant (F := Ideal) I0 .f32 0x00000000#32)

/-- The total of a batch, as the host takes it: the initial zero plus every entry. -/
def totalB (X : Batch) : FVec Ideal I0 .f32 :=
  Host.reduceAdd (axes := [0, 1, 2, 3]) X (constant (F := Ideal) I0 .f32 0x00000000#32) (by decide) (by decide)

/-- The value both programs return, of the prediction `x0` and the target `x1`. -/
def result (x0 x1 : Batch) : FVec Ideal I0 .f32 :=
  dice (totalB (mulf (skelB topB botB zeroB (predB x0)) x1)) (totalB (skelB topB botB zeroB (predB x0)))
       (totalB (mulf (skelB topB botB zeroB x1) (predB x0))) (totalB (skelB topB botB zeroB x1))

end Cert.Spec

end
-- ==== Proof.RefRun.lean ====
/-
  The reference program's run, read against the specification.

  The program is in single-assignment form and its 267 operations fall into ten consecutive stretches
  (RefRunOps.lean).  For each stretch and an ARBITRARY entry valuation V, the few buffers later stretches read
  hold, after it, a function of V at the stretch's inputs, and that function is the specification's: the
  prediction is predB; a skeleton's start is relu (x − open x); one round maps the pair (image, skeleton so far)
  to skelStepB of it; the tail is dice of the four totals.  Every other buffer keeps its contents.  Chaining the
  stretches, no intermediate image is ever substituted into its several uses: the round's pair is handed on as
  a pair.
-/
import proofs.«134960_j61838939128150_1_alg».proof.Proof.RefRunOps
import proofs.«134960_j61838939128150_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

set_option quotPrecheck false in
local notation "⟪" V ", " r "⟫" => V (Proc.devRef (τ := τ) .tc r)

/-- One round of the skeleton on the pair (image, skeleton so far). -/
abbrev step (p : Spec.Batch × Spec.Batch) : Spec.Batch × Spec.Batch := Spec.skelStepB Spec.topB Spec.botB Spec.zeroB p

/-- The skeleton's start: what the opening removes from the image itself. -/
abbrev start (X : Spec.Batch) : Spec.Batch := maximumf (subf X (Spec.openingB Spec.topB Spec.botB X)) Spec.zeroB

variable (V : Valuation τ sig (Elt Ideal))

/-! ## Each stretch, from an arbitrary valuation -/

set_option maxHeartbeats 400000 in
theorem segP_v11 : ⟪after segP V, main_v11⟫ = Spec.predB ⟪V, main_arg0⟫ := by
  simp only [segP]
  after_results_simp
  rfl

set_option maxHeartbeats 400000 in
theorem segA1_v23 : ⟪after segA1 V, main_v23⟫ = start ⟪V, main_v11⟫ := by
  simp only [segA1]
  after_results_simp
  rfl

set_option maxHeartbeats 400000 in
theorem segA2_v28 : ⟪after segA2 V, main_v28⟫ = (step (⟪V, main_v11⟫, ⟪V, main_v23⟫)).1 := by
  simp only [segA2]
  after_results_simp
  rfl

set_option maxHeartbeats 400000 in
theorem segA2_v44 : ⟪after segA2 V, main_v44⟫ = (step (⟪V, main_v11⟫, ⟪V, main_v23⟫)).2 := by
  simp only [segA2]
  after_results_simp
  rfl

set_option maxHeartbeats 400000 in
theorem segA3_v49 : ⟪after segA3 V, main_v49⟫ = (step (⟪V, main_v28⟫, ⟪V, main_v44⟫)).1 := by
  simp only [segA3]
  after_results_simp
  rfl

set_option maxHeartbeats 400000 in
theorem segA3_v65 : ⟪after segA3 V, main_v65⟫ = (step (⟪V, main_v28⟫, ⟪V, main_v44⟫)).2 := by
  simp only [segA3]
  after_results_simp
  rfl

set_option maxHeartbeats 400000 in
theorem segA4_v86 : ⟪after segA4 V, main_v86⟫ = (step (⟪V, main_v49⟫, ⟪V, main_v65⟫)).2 := by
  simp only [segA4]
  after_results_simp
  rfl

set_option maxHeartbeats 400000 in
theorem segB1_v98 : ⟪after segB1 V, main_v98⟫ = start ⟪V, main_arg1⟫ := by
  simp only [segB1]
  after_results_simp
  rfl

set_option maxHeartbeats 400000 in
theorem segB2_v103 : ⟪after segB2 V, main_v103⟫ = (step (⟪V, main_arg1⟫, ⟪V, main_v98⟫)).1 := by
  simp only [segB2]
  after_results_simp
  rfl

set_option maxHeartbeats 400000 in
theorem segB2_v119 : ⟪after segB2 V, main_v119⟫ = (step (⟪V, main_arg1⟫, ⟪V, main_v98⟫)).2 := by
  simp only [segB2]
  after_results_simp
  rfl

set_option maxHeartbeats 400000 in
theorem segB3_v124 : ⟪after segB3 V, main_v124⟫ = (step (⟪V, main_v103⟫, ⟪V, main_v119⟫)).1 := by
  simp only [segB3]
  after_results_simp
  rfl

set_option maxHeartbeats 400000 in
theorem segB3_v140 : ⟪after segB3 V, main_v140⟫ = (step (⟪V, main_v103⟫, ⟪V, main_v119⟫)).2 := by
  simp only [segB3]
  after_results_simp
  rfl

set_option maxHeartbeats 400000 in
theorem segB4_v161 : ⟪after segB4 V, main_v161⟫ = (step (⟪V, main_v124⟫, ⟪V, main_v140⟫)).2 := by
  simp only [segB4]
  after_results_simp
  rfl

set_option maxHeartbeats 400000 in
theorem segT_v178 : ⟪after segT V, main_v178⟫ = Spec.dice (Spec.totalB (mulf ⟪V, main_v86⟫ ⟪V, main_arg1⟫)) (Spec.totalB ⟪V, main_v86⟫)
      (Spec.totalB (mulf ⟪V, main_v161⟫ ⟪V, main_v11⟫)) (Spec.totalB ⟪V, main_v161⟫) := by
  simp only [segT]
  after_results_simp
  rfl

/-! ## The stretches chained -/

/-- The prediction's four skeleton stretches, one after the other. -/
def afterA (V : Valuation τ sig (Elt Ideal)) : Valuation τ sig (Elt Ideal) := after segA4 (after segA3 (after segA2 (after segA1 V)))
/-- The target's four skeleton stretches, one after the other. -/
def afterB (V : Valuation τ sig (Elt Ideal)) : Valuation τ sig (Elt Ideal) := after segB4 (after segB3 (after segB2 (after segB1 V)))

theorem ops_after : after ops V = after segT (afterB (afterA (after segP V))) := by
  simp only [ops, after_append, afterA, afterB]

theorem keepA (r : Ref sig .tc) (h1 : r ∉ segA1_W) (h2 : r ∉ segA2_W) (h3 : r ∉ segA3_W) (h4 : r ∉ segA4_W) :
    ⟪afterA V, r⟫ = ⟪V, r⟫ := by
  unfold afterA
  rw [segA4_keep _ r h4, segA3_keep _ r h3, segA2_keep _ r h2, segA1_keep _ r h1]

theorem keepB (r : Ref sig .tc) (h1 : r ∉ segB1_W) (h2 : r ∉ segB2_W) (h3 : r ∉ segB3_W) (h4 : r ∉ segB4_W) :
    ⟪afterB V, r⟫ = ⟪V, r⟫ := by
  unfold afterB
  rw [segB4_keep _ r h4, segB3_keep _ r h3, segB2_keep _ r h2, segB1_keep _ r h1]

/-- After the prediction's stretches, its skeleton: three rounds from the start, the pair handed on whole. -/
theorem afterA_v86 : ⟪afterA V, main_v86⟫ = Spec.skelB Spec.topB Spec.botB Spec.zeroB ⟪V, main_v11⟫ := by
  unfold afterA
  rw [segA4_v86, segA3_v49, segA3_v65, segA2_v28, segA2_v44, segA1_v23, segA1_keep _ main_v11 (by decide)]
  rfl

/-- After the target's stretches, its skeleton. -/
theorem afterB_v161 : ⟪afterB V, main_v161⟫ = Spec.skelB Spec.topB Spec.botB Spec.zeroB ⟪V, main_arg1⟫ := by
  unfold afterB
  rw [segB4_v161, segB3_v124, segB3_v140, segB2_v103, segB2_v119, segB1_v98, segB1_keep _ main_arg1 (by decide)]
  rfl

/-- The whole line: the result buffer holds the specification's value of the two arguments. -/
theorem ops_v178 : ⟪after ops V, main_v178⟫ = Spec.result ⟪V, main_arg0⟫ ⟪V, main_arg1⟫ := by
  rw [ops_after, segT_v178, afterB_v161,
    keepB _ main_v86 (by decide) (by decide) (by decide) (by decide),
    keepB _ main_arg1 (by decide) (by decide) (by decide) (by decide),
    keepB _ main_v11 (by decide) (by decide) (by decide) (by decide),
    afterA_v86,
    keepA _ main_arg1 (by decide) (by decide) (by decide) (by decide),
    keepA _ main_v11 (by decide) (by decide) (by decide) (by decide),
    segP_v11, segP_keep _ main_arg1 (by decide)]
  rfl

/-- A buffer no stretch writes keeps its contents through the whole line. -/
theorem ops_keep (r : Ref sig .tc) (hP : r ∉ segP_W) (a1 : r ∉ segA1_W) (a2 : r ∉ segA2_W) (a3 : r ∉ segA3_W) (a4 : r ∉ segA4_W)
    (b1 : r ∉ segB1_W) (b2 : r ∉ segB2_W) (b3 : r ∉ segB3_W) (b4 : r ∉ segB4_W) (hT : r ∉ segT_W) :
    ⟪after ops V, r⟫ = ⟪V, r⟫ := by
  rw [ops_after, segT_keep _ r hT, keepB _ r b1 b2 b3 b4, keepA _ r a1 a2 a3 a4, segP_keep _ r hP]

/-! ## The run -/

/-- On every device, from any memory with zero counters: every weakly fair execution of the reference's @main
    terminates with the result buffer at the specification's value of the two arguments, and the arguments
    unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v178) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v178).trans (ops_v178 (launchContents m c)),
      (h c main_arg0).trans (ops_keep (launchContents m c) main_arg0 (by decide) (by decide) (by decide) (by decide) (by decide)
        (by decide) (by decide) (by decide) (by decide) (by decide)),
      (h c main_arg1).trans (ops_keep (launchContents m c) main_arg1 (by decide) (by decide) (by decide) (by decide) (by decide)
        (by decide) (by decide) (by decide) (by decide) (by decide))⟩)
    (run_seq scopedRefs_eq scopedSems_eq defs main (fun _ => ops) main_eq (fun _ => ops_sub) m ρ (fun _ => ops_fresh))

/-- The arguments are unchanged by the run. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => (h c).2) (run m ρ)

end Cert.RefRun

end
-- ==== Proof.KPiece.lean ====
/-
  What one grid point adds to the accumulator.

  At a grid point the kernel holds one image of the prediction and the matching image of the
  target.  It passes the prediction through the logistic function when the prefetched word is
  positive, takes the soft skeleton of both images, and forms four totals over the image:
  Σ skel(p)·t, Σ skel(p), Σ skel(t)·p, Σ skel(t).  These four numbers, laid out as a 1 × 4 row, are
  added to the accumulator the scratch buffer carries from point to point; at the first point the
  accumulator is first set to zero, and at the last point the accumulator is also copied to the
  output block.
-/
import proofs.«134960_j61838939128150_1_alg».proof.Proof.Gen.KernelIdeal.Frame
import proofs.«134960_j61838939128150_1_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KVal

open Cert.KernelIdeal Cert.KernelIdeal.Gen Cert.Spec

theorem hz2 : (![0, 0] : Fin 2 → Nat) = fun _ => 0 := funext fun a => by fin_cases a <;> rfl
theorem hz1 : (![0] : Fin 1 → Nat) = fun _ => 0 := funext fun a => by fin_cases a; rfl
theorem hz4 : (![0, 0, 0, 0] : Fin 4 → Nat) = fun _ => 0 := funext fun a => by fin_cases a <;> rfl

/-- The image a 1 × 1 × 1024 × 1024 block holds. -/
def imgOf (x : Vec Ideal S1x1x1024x1024 .f32) : Img := shapeCast S1024x1024 x (by decide)

/-- The prediction's image as the skeleton is taken of it: through the logistic function when the word is positive. -/
def predOf (w : Elt Ideal .i32) (x : Vec Ideal S1x1x1024x1024 .f32) : Img :=
  Scalar.select (Scalar.cmpi .sgt w 0#32) (logistic (imgOf x)) (imgOf x)

abbrev topK : Ideal .f32 := FloatOps.ofBits .f32 0x7F800000#32
abbrev botK : Ideal .f32 := FloatOps.ofBits .f32 0xFF800000#32
abbrev zeroK : Img := broadcast S1024x1024 (FloatOps.ofBits (F := Ideal) .f32 0x00000000#32)

/-- The total of one image, as the kernel takes it: a reduction over both axes of the image seen as 1 × 1024 × 1024. -/
def totalK (y : Img) : Ideal .f32 :=
  extractAt ![0, 0, 0] (shapeCast S1x1x1 (multiReduction .add [1, 2] S1 (shapeCast S1x1024x1024 y (by decide))
    0x00000000#32 (by decide) (.inl rfl) rfl) (by decide)) (by decide)

theorem cat4 : Shape.Concatenates [S1, S1, S1, S1] S4 0 := by decide

/-- The four totals of one grid point, as a 1 × 4 row. -/
def partials (w : Elt Ideal .i32) (x0 x1 : Vec Ideal S1x1x1024x1024 .f32) : Vec Ideal S1x4 .f32 :=
  shapeCast S1x4 (concatenate S4 0
    [⟨S1, broadcast S1 (totalK (mulf (skel topK botK zeroK (predOf w x0)) (imgOf x1)))⟩,
     ⟨S1, broadcast S1 (totalK (skel topK botK zeroK (predOf w x0)))⟩,
     ⟨S1, broadcast S1 (totalK (mulf (skel topK botK zeroK (imgOf x1)) (predOf w x0)))⟩,
     ⟨S1, broadcast S1 (totalK (skel topK botK zeroK (imgOf x1)))⟩] cat4) (by decide)

/-- The word of the prefetched table. -/
def wordOf {c : Dev nD} (xt0 : TbBuf0 (F := Ideal) c tbM0_0) : Elt Ideal .i32 :=
  tbM0_0.view.read (Elt Ideal) xt0 (Shape.Idx.first (by decide))

set_option maxHeartbeats 4000000 in
/-- A middle point leaves the accumulator plus the point's four totals. -/
theorem sout_B (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x4 .f32) (h4 : a4.IsWhole)
    (a5 : Memref sig .tc .vmem S1x4 .f32) (h5 : a5.IsWhole) (hc0 : ¬cond0_0 i) (hc1 : ¬cond0_1 i)
    (x0 x1 : Vec Ideal S1x1x1024x1024 .f32) (xt0 : TbBuf0 (F := Ideal) c tbM0_0) (xs0 : Vec Ideal S1x4 .f32) :
    sout0_B_0 c i a2 h2 a3 h3 a4 h4 a5 h5 hc0 hc1 x0 x1 xt0 xs0 = addf (F := Ideal) (s := S1x4) (φ := .f32) xs0 (partials (wordOf xt0) x0 x1) := by
  unfold sout0_B_0
  rw [View.read_writes_eq_canon _ _ _ (scover0_B_0 c i a2 h2 a3 h3 a4 h4 a5 h5 hc0 hc1 x0 x1 xt0 xs0)]
  unfold kernelRun0_B
  dsimp only
  sl_unfold_words
  rw [View.canon_unit_zero hz2]
  simp only [View.readAt_eq_ld, h2.read_unread, h3.read_unread, h5.read_unread, View.ld_unit_zero (S := S1x1x1024x1024) hz4,
    View.ld_unit_zero (S := S1x4) hz2, View.ld_unit_zero (S := S1) hz1]
  unfold k0_pay1
  rw [shapeCast_self]
  rfl

/-- The accumulator's zero row. -/
abbrev zeroRow : Vec Ideal S1x4 .f32 := broadcast S1x4 (FloatOps.ofBits (F := Ideal) .f32 0x00000000#32)

set_option maxHeartbeats 4000000 in
/-- The first point sets the accumulator to zero and leaves zero plus the point's four totals. -/
theorem sout_A (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x4 .f32) (h4 : a4.IsWhole)
    (a5 : Memref sig .tc .vmem S1x4 .f32) (h5 : a5.IsWhole) (hc0 : cond0_0 i) (hc1 : ¬cond0_1 i)
    (x0 x1 : Vec Ideal S1x1x1024x1024 .f32) (xt0 : TbBuf0 (F := Ideal) c tbM0_0) :
    sout0_A_0 c i a2 h2 a3 h3 a4 h4 a5 h5 hc0 hc1 x0 x1 xt0
      = addf (F := Ideal) (s := S1x4) (φ := .f32) zeroRow (partials (wordOf xt0) x0 x1) := by
  unfold sout0_A_0
  rw [View.read_writes_eq_canon _ _ _ (scover0_A_0 c i a2 h2 a3 h3 a4 h4 a5 h5 hc0 hc1 x0 x1 xt0)]
  unfold kernelRun0_A
  dsimp only
  sl_unfold_words
  rw [View.canon_cons_unit_zero (S := S1x4) hz2]
  simp only [View.readAt_eq_ld, h2.read_unread, h3.read_unread, View.ld_unit_zero (S := S1x1x1024x1024) hz4,
    View.ld_unit_zero (S := S1x4) hz2, View.ld_unit_zero (S := S1) hz1, View.readCov_unit_zero (S := S1x4) _ hz2]
  unfold k0_pay1 k0_pay2
  simp only [shapeCast_self]
  rfl

set_option maxHeartbeats 4000000 in
/-- The last point leaves the accumulator plus its four totals in the scratch buffer … -/
theorem sout_C (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x4 .f32) (h4 : a4.IsWhole)
    (a5 : Memref sig .tc .vmem S1x4 .f32) (h5 : a5.IsWhole) (hc0 : ¬cond0_0 i) (hc1 : cond0_1 i)
    (x0 x1 : Vec Ideal S1x1x1024x1024 .f32) (xt0 : TbBuf0 (F := Ideal) c tbM0_0) (xs0 : Vec Ideal S1x4 .f32) :
    sout0_C_0 c i a2 h2 a3 h3 a4 h4 a5 h5 hc0 hc1 x0 x1 xt0 xs0
      = addf (F := Ideal) (s := S1x4) (φ := .f32) xs0 (partials (wordOf xt0) x0 x1) := by
  unfold sout0_C_0
  rw [View.read_writes_eq_canon _ _ _ (scover0_C_0 c i a2 h2 a3 h3 a4 h4 a5 h5 hc0 hc1 x0 x1 xt0 xs0)]
  unfold kernelRun0_C
  dsimp only
  sl_unfold_words
  rw [View.canon_unit_zero hz2]
  simp only [View.readAt_eq_ld, h2.read_unread, h3.read_unread, h5.read_unread, View.ld_unit_zero (S := S1x1x1024x1024) hz4,
    View.ld_unit_zero (S := S1x4) hz2, View.ld_unit_zero (S := S1) hz1]
  unfold k0_pay1
  rw [shapeCast_self]
  rfl

set_option maxHeartbeats 4000000 in
/-- … and copies it to the output block. -/
theorem out_C (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x4 .f32) (h4 : a4.IsWhole)
    (a5 : Memref sig .tc .vmem S1x4 .f32) (h5 : a5.IsWhole) (hc0 : ¬cond0_0 i) (hc1 : cond0_1 i)
    (x0 x1 : Vec Ideal S1x1x1024x1024 .f32) (xt0 : TbBuf0 (F := Ideal) c tbM0_0) (xs0 : Vec Ideal S1x4 .f32) :
    out0_C_2 c i a2 h2 a3 h3 a4 h4 a5 h5 hc0 hc1 x0 x1 xt0 xs0
      = addf (F := Ideal) (s := S1x4) (φ := .f32) xs0 (partials (wordOf xt0) x0 x1) := by
  unfold out0_C_2
  rw [View.read_writes_eq_canon _ _ _ (cover0_C_2 c i a2 h2 a3 h3 a4 h4 a5 h5 hc0 hc1 x0 x1 xt0 xs0)]
  unfold kernelRun0_C
  dsimp only
  sl_unfold_words
  rw [View.canon_unit_zero hz2]
  simp only [View.readAt_eq_ld, h2.read_unread, h3.read_unread, h5.read_unread, View.ld_unit_zero (S := S1x1x1024x1024) hz4,
    View.ld_unit_zero (S := S1x4) hz2, View.ld_unit_zero (S := S1) hz1, View.readCov_unit_zero (S := S1x4) _ hz2]
  unfold k0_pay1
  rw [shapeCast_self]
  rfl

end Cert.KVal

end
-- ==== Proof.KAcc.lean ====
/-
  The accumulator over the eight grid points, and the output array.

  Point 0 leaves  0 + P₀  in the scratch buffer, point n + 1 leaves what point n left plus Pₙ₊₁, where Pₙ is the
  row of four totals of image n.  The last point, 7, copies the accumulator to the output block, and it is the
  only point whose block is written back; the block is the whole 1 × 4 output array.  So the output array ends
  holding  ((((0 + P₀) + P₁) + …) + P₇).
-/
import proofs.«134960_j61838939128150_1_alg».proof.Proof.KPiece

noncomputable section

open Idealize.ShloMosaic Idealize.ShloMosaic.TcCoe Idealize.SL.Sem
open Idealize.ShloMosaic.Pipeline (Dat)

namespace Cert.KVal

open Cert.KernelIdeal Cert.KernelIdeal.Gen Cert.Spec

variable (m : (ℓ : Loc nD τ sig) → Buf (Elt Ideal) ℓ) (ρ : Dev nD → PrngReg)

/-- The row of four totals of the images at point `t`. -/
def rowAt (hO : Ok m) (c : Dev nD) (t : Fin (cfgM m hO).N) : Vec Ideal S1x4 .f32 :=
  partials (wordOf (c := c) (tbl m 0)) (iblk m hO c 0 t) (iblk m hO c 1 t)

/-- The first point: zero plus its row. -/
theorem step_A (hO : Ok m) (c : Dev nD) (t : Fin (cfgM m hO).N) (h0 : t.val % 8 = 0) (h1 : ¬t.val % 8 = 7) :
    (outsAt0 m hO c t.val t.isLt).2 = addf (F := Ideal) (s := S1x4) (φ := .f32) zeroRow (rowAt m hO c t) :=
  (congrArg Prod.snd (outsAt0_A m hO c t h0 h1)).trans
    (sout_A c (grid0.coords t) (ms0_0 m hO t) (hs0_0 m hO t) (ms0_1 m hO t) (hs0_1 m hO t) (ms0_2 m hO t) (hs0_2 m hO t)
      scM0_0 (Memref.isWhole_whole _) ((hcond0_0 t).mpr h0) (fun h => h1 ((hcond0_1 t).mp h))
      (iblk m hO c 0 t) (iblk m hO c 1 t) (tbl m 0))

/-- A middle point: what the point before left plus its row. -/
theorem step_B (hO : Ok m) (c : Dev nD) (t : Fin (cfgM m hO).N) (h0 : ¬t.val % 8 = 0) (h1 : ¬t.val % 8 = 7) :
    (outsAt0 m hO c t.val t.isLt).2 = addf (F := Ideal) (s := S1x4) (φ := .f32)
      (outsAt0 m hO c (t.val - 1) (Nat.lt_of_le_of_lt (Nat.sub_le _ _) t.isLt)).2 (rowAt m hO c t) :=
  (congrArg Prod.snd (outsAt0_B m hO c t h0 h1)).trans
    (sout_B c (grid0.coords t) (ms0_0 m hO t) (hs0_0 m hO t) (ms0_1 m hO t) (hs0_1 m hO t) (ms0_2 m hO t) (hs0_2 m hO t)
      scM0_0 (Memref.isWhole_whole _) (fun h => h0 ((hcond0_0 t).mp h)) (fun h => h1 ((hcond0_1 t).mp h))
      (iblk m hO c 0 t) (iblk m hO c 1 t) (tbl m 0) (outsAt0 m hO c (t.val - 1) (Nat.lt_of_le_of_lt (Nat.sub_le _ _) t.isLt)).2)

/-- The last point: the same in the scratch buffer … -/
theorem step_C (hO : Ok m) (c : Dev nD) (t : Fin (cfgM m hO).N) (h0 : ¬t.val % 8 = 0) (h1 : t.val % 8 = 7) :
    (outsAt0 m hO c t.val t.isLt).2 = addf (F := Ideal) (s := S1x4) (φ := .f32)
      (outsAt0 m hO c (t.val - 1) (Nat.lt_of_le_of_lt (Nat.sub_le _ _) t.isLt)).2 (rowAt m hO c t) :=
  (congrArg Prod.snd (outsAt0_C m hO c t h0 h1)).trans
    (sout_C c (grid0.coords t) (ms0_0 m hO t) (hs0_0 m hO t) (ms0_1 m hO t) (hs0_1 m hO t) (ms0_2 m hO t) (hs0_2 m hO t)
      scM0_0 (Memref.isWhole_whole _) (fun h => h0 ((hcond0_0 t).mp h)) ((hcond0_1 t).mpr h1)
      (iblk m hO c 0 t) (iblk m hO c 1 t) (tbl m 0) (outsAt0 m hO c (t.val - 1) (Nat.lt_of_le_of_lt (Nat.sub_le _ _) t.isLt)).2)

/-- … and in the output block. -/
theorem step_C_out (hO : Ok m) (c : Dev nD) (t : Fin (cfgM m hO).N) (h0 : ¬t.val % 8 = 0) (h1 : t.val % 8 = 7) :
    (outsAt0 m hO c t.val t.isLt).1 = addf (F := Ideal) (s := S1x4) (φ := .f32)
      (outsAt0 m hO c (t.val - 1) (Nat.lt_of_le_of_lt (Nat.sub_le _ _) t.isLt)).2 (rowAt m hO c t) :=
  (congrArg Prod.fst (outsAt0_C m hO c t h0 h1)).trans
    (out_C c (grid0.coords t) (ms0_0 m hO t) (hs0_0 m hO t) (ms0_1 m hO t) (hs0_1 m hO t) (ms0_2 m hO t) (hs0_2 m hO t)
      scM0_0 (Memref.isWhole_whole _) (fun h => h0 ((hcond0_0 t).mp h)) ((hcond0_1 t).mpr h1)
      (iblk m hO c 0 t) (iblk m hO c 1 t) (tbl m 0) (outsAt0 m hO c (t.val - 1) (Nat.lt_of_le_of_lt (Nat.sub_le _ _) t.isLt)).2)

/-- The accumulator after point `n`. -/
def chain (hO : Ok m) (c : Dev nD) : (n : ℕ) → n < (cfgM m hO).N → Vec Ideal S1x4 .f32
  | 0, h => addf (F := Ideal) (s := S1x4) (φ := .f32) zeroRow (rowAt m hO c ⟨0, h⟩)
  | n + 1, h => addf (F := Ideal) (s := S1x4) (φ := .f32) (chain hO c n (Nat.lt_of_succ_lt h)) (rowAt m hO c ⟨n + 1, h⟩)

/-- What the scratch buffer holds after point `n` is the accumulator: by induction on the point. -/
theorem scratch_eq (hO : Ok m) (c : Dev nD) : ∀ (n : ℕ) (h : n < (cfgM m hO).N), (outsAt0 m hO c n h).2 = chain m hO c n h
  | 0, h => step_A m hO c ⟨0, h⟩ (Nat.zero_mod _) (by show ¬(0 % 8 = 7); omega)
  | n + 1, h => by
    have hN : (cfgM m hO).N = 8 := N_0
    have h0 : ¬(n + 1) % 8 = 0 := by omega
    have ih := scratch_eq hO c n (Nat.lt_of_succ_lt h)
    by_cases h1 : (n + 1) % 8 = 7
    · refine (step_C m hO c ⟨n + 1, h⟩ h0 h1).trans ?_
      exact congrArg (fun X : Vec Ideal S1x4 .f32 => addf (F := Ideal) (s := S1x4) (φ := .f32) X (rowAt m hO c ⟨n + 1, h⟩)) ih
    · refine (step_B m hO c ⟨n + 1, h⟩ h0 h1).trans ?_
      exact congrArg (fun X : Vec Ideal S1x4 .f32 => addf (F := Ideal) (s := S1x4) (φ := .f32) X (rowAt m hO c ⟨n + 1, h⟩)) ih

theorem lt7 (hO : Ok m) : 7 < (cfgM m hO).N := by rw [show (cfgM m hO).N = 8 from N_0]; decide

/-- The accumulator after the last point. -/
abbrev total4 (hO : Ok m) (c : Dev nD) : Vec Ideal S1x4 .f32 := chain m hO c 7 (lt7 m hO)

/-- The last point leaves the accumulator in the output block. -/
theorem out_last (hO : Ok m) (c : Dev nD) : (outsAt0 m hO c 7 (lt7 m hO)).1 = total4 m hO c := by
  refine (step_C_out m hO c ⟨7, lt7 m hO⟩ (by show ¬(7 % 8 = 0); omega) (by show 7 % 8 = 7; rfl)).trans ?_
  exact congrArg (fun X : Vec Ideal S1x4 .f32 => addf (F := Ideal) (s := S1x4) (φ := .f32) X (rowAt m hO c ⟨7, lt7 m hO⟩))
    (scratch_eq m hO c 6 (Nat.lt_of_succ_lt (lt7 m hO)))

end Cert.KVal

end
-- ==== Proof.KOut.lean ====
/-
  The output array after the region.

  Only the last grid point writes its block back, and that block is the whole 1 × 4 output array; it holds the
  accumulator after the eighth image.  So the array ends holding the accumulator.
-/
import proofs.«134960_j61838939128150_1_alg».proof.Proof.KAcc

noncomputable section

open Idealize.ShloMosaic Idealize.ShloMosaic.TcCoe Idealize.SL.Sem
open Idealize.ShloMosaic.Pipeline (Dat)

namespace Cert.KVal

open Cert.KernelIdeal Cert.KernelIdeal.Gen Cert.Spec

variable (m : (ℓ : Loc nD τ sig) → Buf (Elt Ideal) ℓ) (ρ : Dev nD → PrngReg)

/-- The last grid point. -/
abbrev t7 (hO : Ok m) : Fin (cfgM m hO).N := ⟨7, lt7 m hO⟩

/-- The one write-back, at the last point, writes the accumulator: the block at zero offsets is the array. -/
theorem flushed_eq (hO : Ok m) (c : Dev nD) (t : Fin (cfgM m hO).N) (hf : ((cfgM m hO).win 2).flush t = true) :
    (dats m hO 0 c).flushed 2 t = (((cfgM m hO).win 2).blk t).view.read (Elt Ideal) (total4 m hO c) := by
  have hN : (cfgM m hO).N = 8 := N_0
  have h7 : t.val = 7 := by have := (flush0_2 (adm m hO) t).mp hf; have := t.isLt; omega
  obtain rfl : t = t7 m hO := Fin.ext h7
  show ((cfgM m hO).win 2).cut (grid0.coords (t7 m hO)) ((dats m hO 0 c).after 2 (t7 m hO)) = _
  rw [show (dats m hO 0 c).after 2 (t7 m hO) = total4 m hO c from (after0_2 m hO c (t7 m hO)).trans (out_last m hO c)]
  have hz' : (fun a => ((cfgM m hO).win 2).index (t7 m hO) a * main_v7.ty.shape.size a) = fun _ => 0 :=
    funext fun a => by fin_cases a <;> rfl
  exact (Memref.read_access_unit_zero (Elt Ideal) main_v7 hz' (fun a => by rw [congrFun hz' a]; simp) (total4 m hO c)).symm

/-- So the output array ends holding the accumulator after the last point: that point's block covers the array. -/
theorem final_out (hO : Ok m) (c : Dev nD) : (dats m hO 0 c).arrAt 2 (cfgM m hO).N = total4 m hO c :=
  (dats m hO 0 c).arrAt_eq_of_cover 2 (total4 m hO c) (flushed_eq m hO c) fun i =>
    ⟨t7 m hO, (flush0_2 (adm m hO) (t7 m hO)).mpr rfl,
      (Finset.ext_iff.mp (View.set_slice_whole main_v7 (((cfgM m hO).win 2).rect (t7 m hO))) i).mpr
        (Rect.mem_set_unit.mpr fun a =>
          match a with
          | ⟨0, h⟩ => ⟨Nat.zero_le _, (i ⟨0, h⟩).isLt⟩
          | ⟨1, h⟩ => ⟨Nat.zero_le _, (i ⟨1, h⟩).isLt⟩)⟩

end Cert.KVal

end
-- ==== Proof.KForm.lean ====
/-
  One grid point's four totals, and the accumulator over eight points, on plain images.

  The prediction's image goes through the logistic function when the flag word is positive; the four totals are
  Σ skel(p)·t, Σ skel(p), Σ skel(t)·p, Σ skel(t) over the image, each taken as a reduction over both axes of the
  image seen as 1 × 1024 × 1024; they are laid out as a 1 × 4 row; the accumulator starts at the zero row and adds
  the eight rows in order.
-/
import proofs.«134960_j61838939128150_1_alg».proof.Proof.Spec

noncomputable section

namespace Cert.Spec

open Idealize.ShloMosaic Idealize.ShloMosaic.ValueIdx

/-- A row of four numbers. -/
abbrev R4 : Shape := ⟨2, ![1, 4]⟩
abbrev Row := FVec Ideal R4 .f32

abbrev topK : Ideal .f32 := FloatOps.ofBits .f32 0x7F800000#32
abbrev botK : Ideal .f32 := FloatOps.ofBits .f32 0xFF800000#32
abbrev zeroK : Img := broadcast I2 (FloatOps.ofBits (F := Ideal) .f32 0x00000000#32)
abbrev zeroRow : Row := broadcast R4 (FloatOps.ofBits (F := Ideal) .f32 0x00000000#32)

/-- The prediction's image as the skeleton is taken of it. -/
def predK (w : BitVec 32) (x : Img) : Img :=
  Scalar.select (Scalar.cmpi .sgt w 0#32) (logistic x) x

/-- The total of one image, as a reduction over both axes of the image seen as 1 × 1024 × 1024. -/
def totalK (y : Img) : Ideal .f32 :=
  extractAt ![0, 0, 0] (shapeCast ⟨3, ![1, 1, 1]⟩ (multiReduction .add [1, 2] ⟨1, ![1]⟩ (shapeCast ⟨3, ![1, 1024, 1024]⟩ y (by decide))
    0x00000000#32 (by decide) (.inl rfl) rfl) (by decide)) (by decide)

theorem cat4 : Shape.Concatenates [⟨1, ![1]⟩, ⟨1, ![1]⟩, ⟨1, ![1]⟩, (⟨1, ![1]⟩ : Shape)] ⟨1, ![4]⟩ 0 := by decide

/-- The four totals of one point, as a row: of the prediction's image `p` (before the logistic function) and the target's `t`. -/
def rowK (w : BitVec 32) (p t : Img) : Row :=
  shapeCast R4 (concatenate ⟨1, ![4]⟩ 0
    [⟨⟨1, ![1]⟩, broadcast ⟨1, ![1]⟩ (totalK (mulf (skel topK botK zeroK (predK w p)) t))⟩,
     ⟨⟨1, ![1]⟩, broadcast ⟨1, ![1]⟩ (totalK (skel topK botK zeroK (predK w p)))⟩,
     ⟨⟨1, ![1]⟩, broadcast ⟨1, ![1]⟩ (totalK (mulf (skel topK botK zeroK t) (predK w p)))⟩,
     ⟨⟨1, ![1]⟩, broadcast ⟨1, ![1]⟩ (totalK (skel topK botK zeroK t))⟩] cat4) (by decide)

/-- The accumulator after eight points. -/
def acc8 (R : Fin 8 → Row) : Row :=
  addf (addf (addf (addf (addf (addf (addf (addf zeroRow (R 0)) (R 1)) (R 2)) (R 3)) (R 4)) (R 5)) (R 6)) (R 7)

/-- Entry `k` of a row, as a single number: the 1 × 1 slice at column `k`, reshaped. -/
def entry0 (r : Row) : FVec Ideal I0 .f32 := shapeCast I0 (extractStridedSlice ⟨2, ![1, 1]⟩ ![0, 0] r (by decide)) (by decide)
def entry1 (r : Row) : FVec Ideal I0 .f32 := shapeCast I0 (extractStridedSlice ⟨2, ![1, 1]⟩ ![0, 1] r (by decide)) (by decide)
def entry2 (r : Row) : FVec Ideal I0 .f32 := shapeCast I0 (extractStridedSlice ⟨2, ![1, 1]⟩ ![0, 2] r (by decide)) (by decide)
def entry3 (r : Row) : FVec Ideal I0 .f32 := shapeCast I0 (extractStridedSlice ⟨2, ![1, 1]⟩ ![0, 3] r (by decide)) (by decide)

end Cert.Spec

end
-- ==== Proof.KRun.lean ====
/-
  The kernel program's run, read: after the region the host takes the four entries of the 1 × 4 output array
  and returns  1 − 2·(P·S)/(P + S)  with  P = (a + 1)/(b + 1),  S = (c + 1)/(d + 1)  of them.
-/
import proofs.«134960_j61838939128150_1_alg».proof.Proof.KOut
import proofs.«134960_j61838939128150_1_alg».proof.Proof.KForm
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KVal

open Cert.KernelIdeal Cert.KernelIdeal.Gen Cert.Spec

variable (m : (ℓ : Loc nD τ sig) → Buf (Elt Ideal) ℓ) (ρ : Dev nD → PrngReg)

/-- The result buffer is no array of the region and is not scoped: the region passes it by. -/
theorem v26_mem : main_v26 ∈ Pipeline.restRefs sig spec0 :=
  Pipeline.mem_restRefs_of main_v26 rfl (fun w => by fin_cases w <;> decide)

/-- The value the program returns, of the accumulator after the last point. -/
def returned (hO : Ok m) (c : Dev nD) : FVec Ideal I0 .f32 :=
  dice (entry0 (total4 m hO c)) (entry1 (total4 m hO c)) (entry2 (total4 m hO c)) (entry3 (total4 m hO c))

set_option maxHeartbeats 2000000 in
/-- The host lines after the region, from the output array at the accumulator. -/
theorem tail_eq (hO : Ok m) (c : Dev nD) :
    Pipeline.afterTail (pcfgs (F := Ideal)) (fun _ => adm m hO) (dats m hO) 0 (V0 m) [hostOps1] c main_v26 = returned m hO c := by
  unfold Pipeline.afterTail
  show StableHlo.after hostOps1 _ (Proc.devRef .tc main_v26) = _
  after_results
  have hW : Pipeline.withArrays (Pipeline.pin (pcfgs (F := Ideal)) (fun _ => adm m hO) 0).spec c (V0 m c)
      (fun w => (dats m hO 0 c).arrAt w (Pipeline.pin (pcfgs (F := Ideal)) (fun _ => adm m hO) 0).N) (Proc.devRef .tc main_v7) = total4 m hO c :=
    (Pipeline.withArrays_arr spec0 (launch0 (F := Ideal)).win.arr_inj c _ _ 2).trans (final_out m hO c)
  rw [hW]
  rfl

/-- The run, read: the result buffer at the returned value, the arguments unchanged. -/
theorem run (hO : Ok m) : θ_run defs (onTc (τ := τ) (main (F := Ideal))) ⟨m, fun _ => 0, ρ⟩ fun r => ∀ c : Dev nD,
      r.2.mem ((c.tc : Thread nD τ).loc main_v26) = returned m hO c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v26 v26_mem).trans (tail_eq m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

end Cert.KVal

end
-- ==== Proof.KArgs.lean ====
/-
  The blocks are the images of the arguments.

  Window 0 stages the prediction, window 1 the target, one 1 × 1 × 1024 × 1024 block per grid point: the block at
  point t starts at (t, 0, 0, 0), so the image it holds is image t of the batch.  Hence the accumulator after the
  last point is the accumulator of the eight rows of totals of the arguments' images.
-/
import proofs.«134960_j61838939128150_1_alg».proof.Proof.KOut
import proofs.«134960_j61838939128150_1_alg».proof.Proof.KForm

noncomputable section

open Idealize.ShloMosaic Idealize.ShloMosaic.TcCoe Idealize.SL.Sem Idealize.ShloMosaic.ValueIdx
open Idealize.ShloMosaic.Pipeline (Dat)

namespace Cert.KVal

open Cert.KernelIdeal Cert.KernelIdeal.Gen Cert.Spec

variable (m : (ℓ : Loc nD τ sig) → Buf (Elt Ideal) ℓ) (ρ : Dev nD → PrngReg)

/-- The image of a block, entry by entry: the two leading coordinates are 0. -/
theorem imgOf_apply (x : Vec Ideal S1x1x1024x1024 .f32) (j : I2.Idx) :
    imgOf x j = x (ix4 (0 : Fin 1) (0 : Fin 1) (j 0) (j 1)) := by
  unfold imgOf
  refine shapeCast_apply x _ j (ix4 (0 : Fin 1) (0 : Fin 1) (j 0) (j 1)) ?_
  rw [Shape.rowMajor_val_four, Shape.rowMajor_val_two]
  show ((0 * 1 + 0) * 1024 + (j 0).val) * 1024 + (j 1).val = (j 0).val * 1024 + (j 1).val
  omega

theorem lt8 (hO : Ok m) (t : Fin (cfgM m hO).N) : t.val < 8 := lt_of_lt_of_eq t.isLt N_0

/-- Where the two input windows start at point `t`: at (t, 0, 0, 0). -/
theorem start0 : ∀ t : Fin grid0.N, cc0_transform_0 (grid0.coords t) = ![t.val, 0, 0, 0] := by decide +kernel
theorem start1 : ∀ t : Fin grid0.N, cc0_transform_1 (grid0.coords t) = ![t.val, 0, 0, 0] := by decide +kernel

/-- The prediction's block at point `t` holds image `t` of the prediction. -/
theorem img_blk0 (hO : Ok m) (c : Dev nD) (t : Fin (cfgM m hO).N) :
    imgOf (iblk m hO c 0 t) = imageOf (m ((c : Thread nD τ).loc main_arg0)) ⟨t.val, lt8 m hO t⟩ := by
  have hT := start0 t
  funext j
  refine (imgOf_apply (iblk m hO c 0 t) j).trans ?_
  show V m c main_arg0 _ = m (c.tc.loc main_arg0) _
  refine (congrFun (V_main_arg0 m c) _).trans ?_
  congr 1
  funext a
  apply Fin.ext
  match a with
  | ⟨0, h⟩ => show cc0_transform_0 (grid0.coords t) ⟨0, h⟩ * 1 + 1 * 0 = t.val; rw [hT]; show t.val * 1 + 1 * 0 = t.val; omega
  | ⟨1, h⟩ => show cc0_transform_0 (grid0.coords t) ⟨1, h⟩ * 1 + 1 * 0 = 0; rw [hT]; rfl
  | ⟨2, h⟩ => show cc0_transform_0 (grid0.coords t) ⟨2, h⟩ * 1024 + 1 * (j 0).val = (j 0).val; rw [hT]; show 0 * 1024 + 1 * (j 0).val = (j 0).val; omega
  | ⟨3, h⟩ => show cc0_transform_0 (grid0.coords t) ⟨3, h⟩ * 1024 + 1 * (j 1).val = (j 1).val; rw [hT]; show 0 * 1024 + 1 * (j 1).val = (j 1).val; omega

/-- The target's block at point `t` holds image `t` of the target. -/
theorem img_blk1 (hO : Ok m) (c : Dev nD) (t : Fin (cfgM m hO).N) :
    imgOf (iblk m hO c 1 t) = imageOf (m ((c : Thread nD τ).loc main_arg1)) ⟨t.val, lt8 m hO t⟩ := by
  have hT := start1 t
  funext j
  refine (imgOf_apply (iblk m hO c 1 t) j).trans ?_
  show V m c main_arg1 _ = m (c.tc.loc main_arg1) _
  refine (congrFun (V_main_arg1 m c) _).trans ?_
  congr 1
  funext a
  apply Fin.ext
  match a with
  | ⟨0, h⟩ => show cc0_transform_1 (grid0.coords t) ⟨0, h⟩ * 1 + 1 * 0 = t.val; rw [hT]; show t.val * 1 + 1 * 0 = t.val; omega
  | ⟨1, h⟩ => show cc0_transform_1 (grid0.coords t) ⟨1, h⟩ * 1 + 1 * 0 = 0; rw [hT]; rfl
  | ⟨2, h⟩ => show cc0_transform_1 (grid0.coords t) ⟨2, h⟩ * 1024 + 1 * (j 0).val = (j 0).val; rw [hT]; show 0 * 1024 + 1 * (j 0).val = (j 0).val; omega
  | ⟨3, h⟩ => show cc0_transform_1 (grid0.coords t) ⟨3, h⟩ * 1024 + 1 * (j 1).val = (j 1).val; rw [hT]; show 0 * 1024 + 1 * (j 1).val = (j 1).val; omega

/-- The row of point `t` is the row of the arguments' images `t`. -/
theorem rowAt_eq (hO : Ok m) (c : Dev nD) (t : Fin (cfgM m hO).N) :
    rowAt m hO c t = rowK (wordOf (c := c) (tbl m 0)) (imageOf (m ((c : Thread nD τ).loc main_arg0)) ⟨t.val, lt8 m hO t⟩)
      (imageOf (m ((c : Thread nD τ).loc main_arg1)) ⟨t.val, lt8 m hO t⟩) :=
  (show rowAt m hO c t = rowK (wordOf (c := c) (tbl m 0)) (imgOf (iblk m hO c 0 t)) (imgOf (iblk m hO c 1 t)) from rfl).trans
    (congrArg₂ (rowK (wordOf (c := c) (tbl m 0))) (img_blk0 m hO c t) (img_blk1 m hO c t))

/-- The accumulator after the last point, over the arguments' images. -/
theorem total4_eq (hO : Ok m) (c : Dev nD) :
    total4 m hO c = acc8 fun b : Fin 8 => rowK (wordOf (c := c) (tbl m 0)) (imageOf (m ((c : Thread nD τ).loc main_arg0)) b)
      (imageOf (m ((c : Thread nD τ).loc main_arg1)) b) :=
  (show total4 m hO c = acc8 fun b : Fin 8 => rowAt m hO c ⟨b.val, by rw [show (cfgM m hO).N = 8 from N_0]; exact b.isLt⟩ from rfl).trans
    (congrArg acc8 (funext fun b => rowAt_eq m hO c ⟨b.val, by rw [show (cfgM m hO).N = 8 from N_0]; exact b.isLt⟩))

end Cert.KVal

end
-- ==== Proof.KWord.lean ====
/-
  The prefetched word is the flag.

  Before the region the host takes the minimum and the maximum of the prediction over the whole batch, compares
  the minimum with 0 and the maximum with 1, joins the two bits, widens the bit to a 32-bit word and lays the
  word out as a table of one entry.  The table's word is therefore 1 when some entry of the prediction lies
  outside [0, 1] and 0 otherwise, and it is positive exactly when the bit is set.
-/
import proofs.«134960_j61838939128150_1_alg».proof.Proof.KPiece
import proofs.«134960_j61838939128150_1_alg».proof.Proof.KForm
import Idealize.ShloMosaic.Lib.StableHlo.Run

noncomputable section

open Idealize.ShloMosaic Idealize.ShloMosaic.TcCoe Idealize.SL.Sem Idealize.ShloMosaic.StableHlo

namespace Cert.KVal

open Cert.KernelIdeal Cert.KernelIdeal.Gen Cert.Spec Idealize.ShloMosaic.ValueIdx

/-- A one-bit word widened to 32 bits is positive exactly when the bit is set. -/
theorem sgt_setWidth (b : BitVec 1) : Scalar.cmpi .sgt (b.setWidth 32) 0#32 = b := by
  revert b; decide

set_option maxHeartbeats 400000 in
/-- The table's one word is the widened bit "some entry of the prediction lies outside [0, 1]". -/
theorem wordOf_tbl (m : (ℓ : Loc nD τ sig) → Buf (Elt Ideal) ℓ) :
    wordOf (c := (0 : Dev nD)) (tbl m 0) = (outside (m (((0 : Dev nD) : Thread nD τ).loc main_arg0)) ix0).setWidth 32 := by
  have e : tbl m 0 = fun i => shapeCast S1 (extui 32 (outside (m (((0 : Dev nD) : Thread nD τ).loc main_arg0))) natLt_1_32)
      shapeCasts_S_S1 i := by
    unfold tbl
    show V m 0 main_v6 = _
    dsimp only [V, V0]
    simp only [List.flatten_cons, List.flatten_nil, List.append_nil]
    after_results
    rfl
  unfold wordOf
  rw [e]
  show shapeCast S1 (extui 32 (outside (m (((0 : Dev nD) : Thread nD τ).loc main_arg0))) natLt_1_32)
      shapeCasts_S_S1 (Shape.Idx.first (by decide)) = _
  refine (shapeCast_apply _ shapeCasts_S_S1 _ ix0 ?_).trans rfl
  have a1 := (S_.rowMajor ix0).isLt
  have a2 := (S1.rowMajor (Shape.Idx.first (by decide))).isLt
  have e1 : S_.numel = 1 := by decide
  have e2 : S1.numel = 1 := by decide
  omega

/-- The prefetched word is positive exactly when some entry of the prediction lies outside [0, 1]. -/
theorem word_eq (m : (ℓ : Loc nD τ sig) → Buf (Elt Ideal) ℓ) (c : Dev nD) :
    Scalar.cmpi .sgt (wordOf (c := c) (tbl m 0)) 0#32 = outside (m ((c : Thread nD τ).loc main_arg0)) ix0 := by
  obtain rfl : c = 0 := Subsingleton.elim _ _
  rw [wordOf_tbl, sgt_setWidth]

end Cert.KVal

end
-- ==== Proof.Pool.lean ====
/-
  The two spellings of the 3-wide sliding minimum and maximum agree.

  On one image the sliding operation lays a border of the operation's identity around the image and combines
  three shifted copies; on the batch it is a window reduction of width three with padding one, folded from the
  identity.  Both read, at row p and column q, the three entries p - 1, p, p + 1 of the column (or q - 1, q, q + 1
  of the row) of the line padded by the identity on each side; the window reduction folds the identity in once
  more in front, which changes nothing.  Erosion, dilation, opening and the soft skeleton are built from the
  sliding operations by pointwise operations, so the batch forms are the image forms on each image.
-/
import Idealize.ShloMosaic.PureOps.Ideal
import Idealize.ShloMosaic.Lib.ValueIdx
import Idealize.ShloMosaic.Lib.Pipeline.Value
import proofs.«134960_j61838939128150_1_alg».proof.Proof.Spec

noncomputable section

namespace Cert.Spec

open Idealize.ShloMosaic Idealize.ShloMosaic.ValueIdx

/-- A read at position `r` of a line of 1024 entries padded by one entry `v` on each side: position `0` and
    position `1025` are the padding, position `r` in between is entry `r - 1`. -/
def padRead (g : Fin 1024 → Ideal .f32) (v : Ideal .f32) (r : Nat) : Ideal .f32 :=
  if h : 1 ≤ r ∧ r ≤ 1024 then g ⟨r - 1, by omega⟩ else v

/-- A left fold over three positions, written out. -/
theorem foldl_finRange_three {β : Type} (N : Nat) (hN : N = 3) (g : β → Fin N → β) (v : β) :
    (List.finRange N).foldl g v = g (g (g v ⟨0, by omega⟩) ⟨1, by omega⟩) ⟨2, by omega⟩ := by
  subst hN; rfl

/-- The window along the rows, and along the columns. -/
abbrev WR : Shape := ⟨4, ![1, 1, 3, 1]⟩
abbrev WC : Shape := ⟨4, ![1, 1, 1, 3]⟩
theorem WR_numel : WR.numel = 3 := by decide
theorem WC_numel : WC.numel = 3 := by decide

/-- Position `n` of the row window is at coordinates (0, 0, n, 0). -/
theorem WR_symm (n : Fin WR.numel) :
    WR.rowMajor.symm n = ix4 (0 : Fin 1) (0 : Fin 1) (⟨n.val, by have := n.isLt; have e := WR_numel; omega⟩ : Fin 3) (0 : Fin 1) := by
  refine (Equiv.symm_apply_eq _).2 (Fin.ext ?_)
  rw [Shape.rowMajor_val_four]
  show n.val = ((0 * 1 + 0) * 3 + n.val) * 1 + 0
  omega

/-- Position `n` of the column window is at coordinates (0, 0, 0, n). -/
theorem WC_symm (n : Fin WC.numel) :
    WC.rowMajor.symm n = ix4 (0 : Fin 1) (0 : Fin 1) (0 : Fin 1) (⟨n.val, by have := n.isLt; have e := WC_numel; omega⟩ : Fin 3) := by
  refine (Equiv.symm_apply_eq _).2 (Fin.ext ?_)
  rw [Shape.rowMajor_val_four]
  show n.val = ((0 * 1 + 0) * 1 + 0) * 3 + n.val
  omega

/-! ## The batch: a window reduction at an index -/

/-- One position of the row window at output (b, 0, p, q): inside the batch it reads row `p + k - 1`, outside the
    initial value. -/
theorem rowElem (X : Batch) (v : Ideal .f32) (b : Fin 8) (p q : Fin 1024) (k : Fin 3) (hc : 4 = 4) :
    (if h : ∀ a : Fin 4, (![0, 0, 1, 0] : Fin 4 → Nat) a ≤
          ((ix4 b (0 : Fin 1) p q : I4.Idx) (Fin.cast hc a)).val * (![1, 1, 1, 1] : Fin 4 → Nat) a
            + ((ix4 (0 : Fin 1) (0 : Fin 1) k (0 : Fin 1) : WR.Idx) a).val ∧
        ((ix4 b (0 : Fin 1) p q : I4.Idx) (Fin.cast hc a)).val * (![1, 1, 1, 1] : Fin 4 → Nat) a
            + ((ix4 (0 : Fin 1) (0 : Fin 1) k (0 : Fin 1) : WR.Idx) a).val - (![0, 0, 1, 0] : Fin 4 → Nat) a
          < I4.size a
      then X (fun a => ⟨((ix4 b (0 : Fin 1) p q : I4.Idx) (Fin.cast hc a)).val * (![1, 1, 1, 1] : Fin 4 → Nat) a
            + ((ix4 (0 : Fin 1) (0 : Fin 1) k (0 : Fin 1) : WR.Idx) a).val - (![0, 0, 1, 0] : Fin 4 → Nat) a, (h a).2⟩)
      else v) = padRead (fun r => X (ix4 b 0 r q)) v (p.val + k.val) := by
  unfold padRead
  by_cases hk : 1 ≤ p.val + k.val ∧ p.val + k.val ≤ 1024
  · rw [dif_pos hk, dif_pos]
    · congr 1
      funext a
      match a with
      | ⟨0, _⟩ => exact Fin.ext (by show b.val * 1 + 0 - 0 = b.val; omega)
      | ⟨1, _⟩ => exact Fin.ext (by show 0 * 1 + 0 - 0 = 0; omega)
      | ⟨2, _⟩ => exact Fin.ext (by show p.val * 1 + k.val - 1 = p.val + k.val - 1; omega)
      | ⟨3, _⟩ => exact Fin.ext (by show q.val * 1 + 0 - 0 = q.val; omega)
    · intro a
      match a with
      | ⟨0, _⟩ => exact ⟨by show 0 ≤ b.val * 1 + 0; omega, by show b.val * 1 + 0 - 0 < 8; omega⟩
      | ⟨1, _⟩ => exact ⟨by show 0 ≤ 0 * 1 + 0; omega, by show 0 * 1 + 0 - 0 < 1; omega⟩
      | ⟨2, _⟩ => exact ⟨by show 1 ≤ p.val * 1 + k.val; omega, by show p.val * 1 + k.val - 1 < 1024; omega⟩
      | ⟨3, _⟩ => exact ⟨by show 0 ≤ q.val * 1 + 0; omega, by show q.val * 1 + 0 - 0 < 1024; omega⟩
  · rw [dif_neg hk, dif_neg]
    intro h
    have h2 := h ⟨2, by decide⟩
    apply hk
    change 1 ≤ p.val * 1 + k.val ∧ p.val * 1 + k.val - 1 < 1024 at h2
    omega

/-- The window reduction along the rows at (b, 0, p, q): the fold, from the initial value, of the three padded reads
    at rows p - 1, p, p + 1. -/
theorem slideRowsB_apply (f : Ideal .f32 → Ideal .f32 → Ideal .f32) (init : FVec Ideal I0 .f32) (X : Batch)
    (b : Fin 8) (p q : Fin 1024) :
    slideRowsB f init X (ix4 b 0 p q) =
      f (f (f (init ix0) (padRead (fun r => X (ix4 b 0 r q)) (init ix0) p.val))
          (padRead (fun r => X (ix4 b 0 r q)) (init ix0) (p.val + 1)))
        (padRead (fun r => X (ix4 b 0 r q)) (init ix0) (p.val + 2)) := by
  unfold slideRowsB Host.reduceWindow
  simp only []
  rw [foldl_finRange_three _ WR_numel]
  simp only [WR_symm]
  have e0 : init (Shape.Idx.first (s := I0) (by decide)) = init ix0 := congrArg init (eq_ix0 _)
  refine congrArg₂ f (congrArg₂ f (congrArg₂ f e0 ?_) ?_) ?_
  · exact (rowElem X _ b p q 0 rfl).trans (by rw [e0]; rfl)
  · exact (rowElem X _ b p q 1 rfl).trans (by rw [e0]; rfl)
  · exact (rowElem X _ b p q 2 rfl).trans (by rw [e0]; rfl)

/-- One position of the column window at output (b, 0, p, q): inside the batch it reads column `q + k - 1`, outside
    the initial value. -/
theorem colElem (X : Batch) (v : Ideal .f32) (b : Fin 8) (p q : Fin 1024) (k : Fin 3) (hc : 4 = 4) :
    (if h : ∀ a : Fin 4, (![0, 0, 0, 1] : Fin 4 → Nat) a ≤
          ((ix4 b (0 : Fin 1) p q : I4.Idx) (Fin.cast hc a)).val * (![1, 1, 1, 1] : Fin 4 → Nat) a
            + ((ix4 (0 : Fin 1) (0 : Fin 1) (0 : Fin 1) k : WC.Idx) a).val ∧
        ((ix4 b (0 : Fin 1) p q : I4.Idx) (Fin.cast hc a)).val * (![1, 1, 1, 1] : Fin 4 → Nat) a
            + ((ix4 (0 : Fin 1) (0 : Fin 1) (0 : Fin 1) k : WC.Idx) a).val - (![0, 0, 0, 1] : Fin 4 → Nat) a
          < I4.size a
      then X (fun a => ⟨((ix4 b (0 : Fin 1) p q : I4.Idx) (Fin.cast hc a)).val * (![1, 1, 1, 1] : Fin 4 → Nat) a
            + ((ix4 (0 : Fin 1) (0 : Fin 1) (0 : Fin 1) k : WC.Idx) a).val - (![0, 0, 0, 1] : Fin 4 → Nat) a, (h a).2⟩)
      else v) = padRead (fun r => X (ix4 b 0 p r)) v (q.val + k.val) := by
  unfold padRead
  by_cases hk : 1 ≤ q.val + k.val ∧ q.val + k.val ≤ 1024
  · rw [dif_pos hk, dif_pos]
    · congr 1
      funext a
      match a with
      | ⟨0, _⟩ => exact Fin.ext (by show b.val * 1 + 0 - 0 = b.val; omega)
      | ⟨1, _⟩ => exact Fin.ext (by show 0 * 1 + 0 - 0 = 0; omega)
      | ⟨2, _⟩ => exact Fin.ext (by show p.val * 1 + 0 - 0 = p.val; omega)
      | ⟨3, _⟩ => exact Fin.ext (by show q.val * 1 + k.val - 1 = q.val + k.val - 1; omega)
    · intro a
      match a with
      | ⟨0, _⟩ => exact ⟨by show 0 ≤ b.val * 1 + 0; omega, by show b.val * 1 + 0 - 0 < 8; omega⟩
      | ⟨1, _⟩ => exact ⟨by show 0 ≤ 0 * 1 + 0; omega, by show 0 * 1 + 0 - 0 < 1; omega⟩
      | ⟨2, _⟩ => exact ⟨by show 0 ≤ p.val * 1 + 0; omega, by show p.val * 1 + 0 - 0 < 1024; omega⟩
      | ⟨3, _⟩ => exact ⟨by show 1 ≤ q.val * 1 + k.val; omega, by show q.val * 1 + k.val - 1 < 1024; omega⟩
  · rw [dif_neg hk, dif_neg]
    intro h
    have h3 := h ⟨3, by decide⟩
    apply hk
    change 1 ≤ q.val * 1 + k.val ∧ q.val * 1 + k.val - 1 < 1024 at h3
    omega

/-- The window reduction along the columns at (b, 0, p, q): the fold, from the initial value, of the three padded
    reads at columns q - 1, q, q + 1. -/
theorem slideColsB_apply (f : Ideal .f32 → Ideal .f32 → Ideal .f32) (init : FVec Ideal I0 .f32) (X : Batch)
    (b : Fin 8) (p q : Fin 1024) :
    slideColsB f init X (ix4 b 0 p q) =
      f (f (f (init ix0) (padRead (fun r => X (ix4 b 0 p r)) (init ix0) q.val))
          (padRead (fun r => X (ix4 b 0 p r)) (init ix0) (q.val + 1)))
        (padRead (fun r => X (ix4 b 0 p r)) (init ix0) (q.val + 2)) := by
  unfold slideColsB Host.reduceWindow
  simp only []
  rw [foldl_finRange_three _ WC_numel]
  simp only [WC_symm]
  have e0 : init (Shape.Idx.first (s := I0) (by decide)) = init ix0 := congrArg init (eq_ix0 _)
  refine congrArg₂ f (congrArg₂ f (congrArg₂ f e0 ?_) ?_) ?_
  · exact (colElem X _ b p q 0 rfl).trans (by rw [e0]; rfl)
  · exact (colElem X _ b p q 1 rfl).trans (by rw [e0]; rfl)
  · exact (colElem X _ b p q 2 rfl).trans (by rw [e0]; rfl)

/-! ## One image: the bordered image and its three shifted copies at an index -/

/-- The image with a border row above and below, read at row `r` of the 1026: the padded read. -/
theorem borderRows_apply (pad : Ideal .f32) (x : Img) (r : Fin 1026) (q : Fin 1024) :
    borderRows pad x (ix2 r q) = padRead (fun p => x (ix2 p q)) pad r.val := by
  have hr := r.isLt
  unfold borderRows padRead
  by_cases h : 1 ≤ r.val ∧ r.val ≤ 1024
  · rw [dif_pos h]
    refine (concatenate_pair_apply_left (t := ⟨2, ![1026, 1024]⟩) (s₁ := ⟨2, ![1025, 1024]⟩) (s₂ := ⟨2, ![1, 1024]⟩)
      (0 : Fin 2) _ _ cat_rows_b _ rfl (ix2 (⟨r.val, by omega⟩ : Fin 1025) q) (fun b => by
      match b with
      | ⟨0, _⟩ => rfl
      | ⟨1, _⟩ => rfl)).trans ?_
    exact concatenate_pair_apply_right (t := ⟨2, ![1025, 1024]⟩) (s₁ := ⟨2, ![1, 1024]⟩) (s₂ := I2)
      (0 : Fin 2) _ _ cat_rows_a _ rfl rfl (ix2 (⟨r.val - 1, by omega⟩ : Fin 1024) q) (fun b hb => by
      match b with
      | ⟨0, _⟩ => exact absurd rfl hb
      | ⟨1, _⟩ => rfl) (by show r.val - 1 + 1 = r.val; omega)
  · rw [dif_neg h]
    by_cases h0 : r.val = 0
    · refine (concatenate_pair_apply_left (t := ⟨2, ![1026, 1024]⟩) (s₁ := ⟨2, ![1025, 1024]⟩) (s₂ := ⟨2, ![1, 1024]⟩)
        (0 : Fin 2) _ _ cat_rows_b _ rfl (ix2 (⟨r.val, by omega⟩ : Fin 1025) q) (fun b => by
        match b with
        | ⟨0, _⟩ => rfl
        | ⟨1, _⟩ => rfl)).trans ?_
      exact concatenate_pair_apply_left (t := ⟨2, ![1025, 1024]⟩) (s₁ := ⟨2, ![1, 1024]⟩) (s₂ := I2)
        (0 : Fin 2) _ _ cat_rows_a _ rfl (ix2 (⟨r.val, by omega⟩ : Fin 1) q) (fun b => by
        match b with
        | ⟨0, _⟩ => rfl
        | ⟨1, _⟩ => rfl)
    · exact concatenate_pair_apply_right (t := ⟨2, ![1026, 1024]⟩) (s₁ := ⟨2, ![1025, 1024]⟩) (s₂ := ⟨2, ![1, 1024]⟩)
        (0 : Fin 2) _ _ cat_rows_b _ rfl rfl (ix2 (⟨r.val - 1025, by omega⟩ : Fin 1) q) (fun b hb => by
        match b with
        | ⟨0, _⟩ => exact absurd rfl hb
        | ⟨1, _⟩ => rfl) (by show r.val - 1025 + 1025 = r.val; omega)

/-- The image with a border column left and right, read at column `r` of the 1026: the padded read. -/
theorem borderCols_apply (pad : Ideal .f32) (x : Img) (p : Fin 1024) (r : Fin 1026) :
    borderCols pad x (ix2 p r) = padRead (fun q => x (ix2 p q)) pad r.val := by
  have hr := r.isLt
  unfold borderCols padRead
  by_cases h : 1 ≤ r.val ∧ r.val ≤ 1024
  · rw [dif_pos h]
    refine (concatenate_pair_apply_left (t := ⟨2, ![1024, 1026]⟩) (s₁ := ⟨2, ![1024, 1025]⟩) (s₂ := ⟨2, ![1024, 1]⟩)
      (1 : Fin 2) _ _ cat_cols_b _ rfl (ix2 p (⟨r.val, by omega⟩ : Fin 1025)) (fun b => by
      match b with
      | ⟨0, _⟩ => rfl
      | ⟨1, _⟩ => rfl)).trans ?_
    exact concatenate_pair_apply_right (t := ⟨2, ![1024, 1025]⟩) (s₁ := ⟨2, ![1024, 1]⟩) (s₂ := I2)
      (1 : Fin 2) _ _ cat_cols_a _ rfl rfl (ix2 p (⟨r.val - 1, by omega⟩ : Fin 1024)) (fun b hb => by
      match b with
      | ⟨0, _⟩ => rfl
      | ⟨1, _⟩ => exact absurd rfl hb) (by show r.val - 1 + 1 = r.val; omega)
  · rw [dif_neg h]
    by_cases h0 : r.val = 0
    · refine (concatenate_pair_apply_left (t := ⟨2, ![1024, 1026]⟩) (s₁ := ⟨2, ![1024, 1025]⟩) (s₂ := ⟨2, ![1024, 1]⟩)
        (1 : Fin 2) _ _ cat_cols_b _ rfl (ix2 p (⟨r.val, by omega⟩ : Fin 1025)) (fun b => by
        match b with
        | ⟨0, _⟩ => rfl
        | ⟨1, _⟩ => rfl)).trans ?_
      exact concatenate_pair_apply_left (t := ⟨2, ![1024, 1025]⟩) (s₁ := ⟨2, ![1024, 1]⟩) (s₂ := I2)
        (1 : Fin 2) _ _ cat_cols_a _ rfl (ix2 p (⟨r.val, by omega⟩ : Fin 1)) (fun b => by
        match b with
        | ⟨0, _⟩ => rfl
        | ⟨1, _⟩ => rfl)
    · exact concatenate_pair_apply_right (t := ⟨2, ![1024, 1026]⟩) (s₁ := ⟨2, ![1024, 1025]⟩) (s₂ := ⟨2, ![1024, 1]⟩)
        (1 : Fin 2) _ _ cat_cols_b _ rfl rfl (ix2 p (⟨r.val - 1025, by omega⟩ : Fin 1)) (fun b hb => by
        match b with
        | ⟨0, _⟩ => rfl
        | ⟨1, _⟩ => exact absurd rfl hb) (by show r.val - 1025 + 1025 = r.val; omega)

/-- The three shifted copies of the bordered image at (p, q), combined by a pointwise operation: the padded reads at
    rows p - 1, p, p + 1. -/
theorem slideRows_apply (f : Img → Img → Img) (φ : Ideal .f32 → Ideal .f32 → Ideal .f32)
    (hf : ∀ (a b : Img) (i : I2.Idx), f a b i = φ (a i) (b i)) (pad : Ideal .f32) (x : Img) (p q : Fin 1024) :
    slideRows f pad x (ix2 p q) =
      φ (φ (padRead (fun r => x (ix2 r q)) pad p.val) (padRead (fun r => x (ix2 r q)) pad (p.val + 1)))
        (padRead (fun r => x (ix2 r q)) pad (p.val + 2)) := by
  have hp := p.isLt
  unfold slideRows
  rw [hf, hf]
  rw [extractStridedSlice_apply ![0, 0] (borderRows pad x) _ (ix2 p q) (ix2 (⟨p.val, by omega⟩ : Fin 1026) q) (fun a => by
        match a with
        | ⟨0, _⟩ => show p.val = 0 + p.val; omega
        | ⟨1, _⟩ => show q.val = 0 + q.val; omega),
      extractStridedSlice_apply ![1, 0] (borderRows pad x) _ (ix2 p q) (ix2 (⟨p.val + 1, by omega⟩ : Fin 1026) q) (fun a => by
        match a with
        | ⟨0, _⟩ => show p.val + 1 = 1 + p.val; omega
        | ⟨1, _⟩ => show q.val = 0 + q.val; omega),
      extractStridedSlice_apply ![2, 0] (borderRows pad x) _ (ix2 p q) (ix2 (⟨p.val + 2, by omega⟩ : Fin 1026) q) (fun a => by
        match a with
        | ⟨0, _⟩ => show p.val + 2 = 2 + p.val; omega
        | ⟨1, _⟩ => show q.val = 0 + q.val; omega),
      borderRows_apply, borderRows_apply, borderRows_apply]

/-- The three shifted copies of the bordered image at (p, q), combined by a pointwise operation: the padded reads at
    columns q - 1, q, q + 1. -/
theorem slideCols_apply (f : Img → Img → Img) (φ : Ideal .f32 → Ideal .f32 → Ideal .f32)
    (hf : ∀ (a b : Img) (i : I2.Idx), f a b i = φ (a i) (b i)) (pad : Ideal .f32) (x : Img) (p q : Fin 1024) :
    slideCols f pad x (ix2 p q) =
      φ (φ (padRead (fun r => x (ix2 p r)) pad q.val) (padRead (fun r => x (ix2 p r)) pad (q.val + 1)))
        (padRead (fun r => x (ix2 p r)) pad (q.val + 2)) := by
  have hq := q.isLt
  unfold slideCols
  rw [hf, hf]
  rw [extractStridedSlice_apply ![0, 0] (borderCols pad x) _ (ix2 p q) (ix2 p (⟨q.val, by omega⟩ : Fin 1026)) (fun a => by
        match a with
        | ⟨0, _⟩ => show p.val = 0 + p.val; omega
        | ⟨1, _⟩ => show q.val = 0 + q.val; omega),
      extractStridedSlice_apply ![0, 1] (borderCols pad x) _ (ix2 p q) (ix2 p (⟨q.val + 1, by omega⟩ : Fin 1026)) (fun a => by
        match a with
        | ⟨0, _⟩ => show p.val = 0 + p.val; omega
        | ⟨1, _⟩ => show q.val + 1 = 1 + q.val; omega),
      extractStridedSlice_apply ![0, 2] (borderCols pad x) _ (ix2 p q) (ix2 p (⟨q.val + 2, by omega⟩ : Fin 1026)) (fun a => by
        match a with
        | ⟨0, _⟩ => show p.val = 0 + p.val; omega
        | ⟨1, _⟩ => show q.val + 2 = 2 + q.val; omega),
      borderCols_apply, borderCols_apply, borderCols_apply]

/-! ## The two spellings agree, image by image -/

/-- The sliding minimum along the rows: the window reduction from ⊤ is, on each image, the bordered three-copy form. -/
theorem imageOf_slideRowsB_min (X : Batch) (init : FVec Ideal I0 .f32) (pad : Ideal .f32) (hi : init ix0 = ⊤)
    (hp : pad = ⊤) (b : Fin 8) :
    imageOf (slideRowsB FloatOps.minimumf init X) b = slideRows minimumf pad (imageOf X b) := by
  funext j
  obtain ⟨p, q, rfl⟩ : ∃ p q, j = ix2 p q := ⟨j 0, j 1, eq_ix2 j⟩
  show slideRowsB FloatOps.minimumf init X (ix4 b 0 p q) = _
  rw [slideRowsB_apply, slideRows_apply minimumf min minimumf_apply, hi, hp]
  show min (min (min ⊤ _) _) _ = _
  rw [min_eq_right le_top]
  rfl

/-- The sliding minimum along the columns. -/
theorem imageOf_slideColsB_min (X : Batch) (init : FVec Ideal I0 .f32) (pad : Ideal .f32) (hi : init ix0 = ⊤)
    (hp : pad = ⊤) (b : Fin 8) :
    imageOf (slideColsB FloatOps.minimumf init X) b = slideCols minimumf pad (imageOf X b) := by
  funext j
  obtain ⟨p, q, rfl⟩ : ∃ p q, j = ix2 p q := ⟨j 0, j 1, eq_ix2 j⟩
  show slideColsB FloatOps.minimumf init X (ix4 b 0 p q) = _
  rw [slideColsB_apply, slideCols_apply minimumf min minimumf_apply, hi, hp]
  show min (min (min ⊤ _) _) _ = _
  rw [min_eq_right le_top]
  rfl

/-- The sliding maximum along the rows: the window reduction from ⊥ is, on each image, the bordered three-copy form. -/
theorem imageOf_slideRowsB_max (X : Batch) (init : FVec Ideal I0 .f32) (pad : Ideal .f32) (hi : init ix0 = ⊥)
    (hp : pad = ⊥) (b : Fin 8) :
    imageOf (slideRowsB FloatOps.maximumf init X) b = slideRows maximumf pad (imageOf X b) := by
  funext j
  obtain ⟨p, q, rfl⟩ : ∃ p q, j = ix2 p q := ⟨j 0, j 1, eq_ix2 j⟩
  show slideRowsB FloatOps.maximumf init X (ix4 b 0 p q) = _
  rw [slideRowsB_apply, slideRows_apply maximumf max maximumf_apply, hi, hp]
  show max (max (max ⊥ _) _) _ = _
  rw [max_eq_right bot_le]
  rfl

/-- The sliding maximum along the columns. -/
theorem imageOf_slideColsB_max (X : Batch) (init : FVec Ideal I0 .f32) (pad : Ideal .f32) (hi : init ix0 = ⊥)
    (hp : pad = ⊥) (b : Fin 8) :
    imageOf (slideColsB FloatOps.maximumf init X) b = slideCols maximumf pad (imageOf X b) := by
  funext j
  obtain ⟨p, q, rfl⟩ : ∃ p q, j = ix2 p q := ⟨j 0, j 1, eq_ix2 j⟩
  show slideColsB FloatOps.maximumf init X (ix4 b 0 p q) = _
  rw [slideColsB_apply, slideCols_apply maximumf max maximumf_apply, hi, hp]
  show max (max (max ⊥ _) _) _ = _
  rw [max_eq_right bot_le]
  rfl

/-! ## Pointwise operations commute with taking an image -/

theorem imageOf_minimumf (X Y : Batch) (b : Fin 8) :
    imageOf (minimumf X Y) b = minimumf (imageOf X b) (imageOf Y b) := rfl
theorem imageOf_maximumf (X Y : Batch) (b : Fin 8) :
    imageOf (maximumf X Y) b = maximumf (imageOf X b) (imageOf Y b) := rfl
theorem imageOf_subf (X Y : Batch) (b : Fin 8) :
    imageOf (subf X Y) b = subf (imageOf X b) (imageOf Y b) := rfl
theorem imageOf_addf (X Y : Batch) (b : Fin 8) :
    imageOf (addf X Y) b = addf (imageOf X b) (imageOf Y b) := rfl
theorem imageOf_mulf (X Y : Batch) (b : Fin 8) :
    imageOf (mulf X Y) b = mulf (imageOf X b) (imageOf Y b) := rfl

/-! ## Erosion, dilation, opening and the skeleton, image by image -/

/-- Erosion of the batch is erosion of each image. -/
theorem imageOf_erodeB (top : FVec Ideal I0 .f32) (t : Ideal .f32) (ht : top ix0 = ⊤) (htt : t = ⊤) (X : Batch)
    (b : Fin 8) : imageOf (erodeB top X) b = erode t (imageOf X b) := by
  unfold erodeB erode
  rw [imageOf_minimumf, imageOf_slideRowsB_min X top t ht htt, imageOf_slideColsB_min X top t ht htt]

/-- Dilation of the batch is dilation of each image. -/
theorem imageOf_dilateB (bot : FVec Ideal I0 .f32) (u : Ideal .f32) (hb : bot ix0 = ⊥) (hu : u = ⊥) (X : Batch)
    (b : Fin 8) : imageOf (dilateB bot X) b = dilate u (imageOf X b) := by
  unfold dilateB dilate
  rw [imageOf_maximumf, imageOf_slideRowsB_max X bot u hb hu, imageOf_slideColsB_max X bot u hb hu]

/-- Opening of the batch is opening of each image. -/
theorem imageOf_openingB (top bot : FVec Ideal I0 .f32) (t u : Ideal .f32) (ht : top ix0 = ⊤) (hb : bot ix0 = ⊥)
    (htt : t = ⊤) (hu : u = ⊥) (X : Batch) (b : Fin 8) :
    imageOf (openingB top bot X) b = opening t u (imageOf X b) := by
  unfold openingB opening
  rw [imageOf_dilateB bot u hb hu, imageOf_erodeB top t ht htt]

/-- Image `b` of a pair of batches. -/
def imagePair (P : Batch × Batch) (b : Fin 8) : Img × Img := (imageOf P.1 b, imageOf P.2 b)

/-- One round of the skeleton on the batch is one round on each image. -/
theorem imageOf_skelStepB (top bot : FVec Ideal I0 .f32) (Z : Batch) (t u : Ideal .f32) (z : Img)
    (ht : top ix0 = ⊤) (hb : bot ix0 = ⊥) (htt : t = ⊤) (hu : u = ⊥) (hz : ∀ b, imageOf Z b = z)
    (P : Batch × Batch) (b : Fin 8) :
    imagePair (skelStepB top bot Z P) b = skelStep t u z (imagePair P b) := by
  unfold imagePair skelStepB skelStep
  refine Prod.ext ?_ ?_
  · exact imageOf_erodeB top t ht htt P.1 b
  · show imageOf (addf P.2 (maximumf (subf (maximumf (subf (erodeB top P.1) (openingB top bot (erodeB top P.1))) Z)
        (mulf P.2 (maximumf (subf (erodeB top P.1) (openingB top bot (erodeB top P.1))) Z))) Z)) b = _
    simp only [imageOf_addf, imageOf_maximumf, imageOf_subf, imageOf_mulf, imageOf_openingB top bot t u ht hb htt hu,
      imageOf_erodeB top t ht htt, hz]

/-- The soft skeleton of the batch is the soft skeleton of each image. -/
theorem imageOf_skelB (top bot : FVec Ideal I0 .f32) (Z : Batch) (t u : Ideal .f32) (z : Img) (ht : top ix0 = ⊤)
    (hb : bot ix0 = ⊥) (htt : t = ⊤) (hu : u = ⊥) (hz : ∀ b, imageOf Z b = z) (X : Batch) (b : Fin 8) :
    imageOf (skelB top bot Z X) b = skel t u z (imageOf X b) := by
  unfold skelB skel
  have h0 : imagePair (X, maximumf (subf X (openingB top bot X)) Z) b
      = (imageOf X b, maximumf (subf (imageOf X b) (opening t u (imageOf X b))) z) := by
    unfold imagePair
    refine Prod.ext rfl ?_
    show imageOf (maximumf (subf X (openingB top bot X)) Z) b = _
    rw [imageOf_maximumf, imageOf_subf, imageOf_openingB top bot t u ht hb htt hu, hz]
  have h1 := imageOf_skelStepB top bot Z t u z ht hb htt hu hz (X, maximumf (subf X (openingB top bot X)) Z) b
  have h2 := imageOf_skelStepB top bot Z t u z ht hb htt hu hz
    (skelStepB top bot Z (X, maximumf (subf X (openingB top bot X)) Z)) b
  have h3 := imageOf_skelStepB top bot Z t u z ht hb htt hu hz
    (skelStepB top bot Z (skelStepB top bot Z (X, maximumf (subf X (openingB top bot X)) Z))) b
  rw [h2, h1, h0] at h3
  exact congrArg Prod.snd h3

end Cert.Spec

end
-- ==== Proof.Sums.lean ====
/-
  Sums over the batch and over one image.

  An index of the batch [8, 1, 1024, 1024] is an image number and an index of the image, the axis of extent one
  having the single coordinate 0; so a sum over the batch is the sum over the images of the sum over each image.
  The host's total of a batch, from the initial value 0, is that double sum; and the kernel's total of one image —
  the image viewed as [1, 1024, 1024], summed over its two long axes, the one entry read out — is the sum over
  the image.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«134960_j61838939128150_1_alg».proof.Proof.Spec

noncomputable section

open scoped BigOperators

namespace Cert.Spec

open Idealize.ShloMosaic Idealize.ShloMosaic.ValueIdx

/-- An index of the batch is an image number and an index of the image. -/
def batchEquiv : I4.Idx ≃ Fin 8 × I2.Idx where
  toFun i := ((i 0 : Fin 8), ix2 (n0 := 1024) (n1 := 1024) (i 2) (i 3))
  invFun p := ix4 p.1 (0 : Fin 1) (p.2 0) (p.2 1)
  left_inv i := by
    funext a
    match a with
    | ⟨0, _⟩ => rfl
    | ⟨1, _⟩ =>
      have h1 : (i 1).val < 1 := (i 1).isLt
      exact Fin.ext (by show 0 = (i 1).val; omega)
    | ⟨2, _⟩ => rfl
    | ⟨3, _⟩ => rfl
  right_inv p := Prod.ext rfl (eq_ix2 p.2).symm

/-- A sum over the batch is the sum over the images of the sum over each image. -/
theorem sum_batch {M : Type*} [AddCommMonoid M] (X : I4.Idx → M) :
    ∑ i : I4.Idx, X i = ∑ b : Fin 8, ∑ j : I2.Idx, X (ix4 b 0 (j 0) (j 1)) := by
  rw [← Equiv.sum_comp batchEquiv.symm X, Fintype.sum_prod_type]
  rfl

/-- The host's total of a batch is the sum over the images of each image's sum. -/
theorem totalB_apply (X : Batch) : totalB X ix0 = ∑ b : Fin 8, ∑ j : I2.Idx, imageOf X b j := by
  unfold totalB
  rw [hostReduceAdd_apply, Ideal.hostReduceAdd_total _ (fun b => b.elim0), constant_apply, Ideal.ofBits_zero_f32,
    zero_add, sum_batch]
  rfl

/-- An index of the image viewed as [1, 1024, 1024] is an index of the image. -/
def viewEquiv : (⟨3, ![1, 1024, 1024]⟩ : Shape).Idx ≃ I2.Idx where
  toFun i := ix2 (n0 := 1024) (n1 := 1024) (i 1) (i 2)
  invFun j := ix3 (0 : Fin 1) (j 0) (j 1)
  left_inv i := by
    funext a
    match a with
    | ⟨0, _⟩ =>
      have h0 : (i 0).val < 1 := (i 0).isLt
      exact Fin.ext (by show 0 = (i 0).val; omega)
    | ⟨1, _⟩ => rfl
    | ⟨2, _⟩ => rfl
  right_inv j := (eq_ix2 j).symm

/-- The image viewed as [1, 1024, 1024] reads the image at the two long coordinates. -/
theorem view_apply (y : Img) (h : I2.ShapeCasts ⟨3, ![1, 1024, 1024]⟩) (i : (⟨3, ![1, 1024, 1024]⟩ : Shape).Idx) :
    shapeCast ⟨3, ![1, 1024, 1024]⟩ y h i = y (viewEquiv i) := by
  have h0 : (i 0).val < 1 := (i 0).isLt
  refine shapeCast_apply y h i (viewEquiv i) ?_
  rw [Shape.rowMajor_val_two, Shape.rowMajor_val_three]
  show (i 1).val * 1024 + (i 2).val = ((i 0).val * 1024 + (i 1).val) * 1024 + (i 2).val
  omega

/-- The kernel's total of one image: the image viewed as [1, 1024, 1024], summed over its two long axes from the
    accumulator 0, viewed as [1, 1, 1] and read at its one entry, is the sum over the image. -/
theorem sumAll_eq (y : Img) :
    extractAt ![0, 0, 0] (shapeCast ⟨3, ![1, 1, 1]⟩ (multiReduction (F := Ideal) .add [1, 2] ⟨1, ![1]⟩
        (shapeCast ⟨3, ![1, 1024, 1024]⟩ y (by decide)) 0x00000000#32 (by decide) (.inl rfl) rfl) (by decide)) (by decide)
      = ∑ j : I2.Idx, y j := by
  unfold extractAt
  refine (shapeCast_apply _ _ _ (ix1 (0 : Fin 1)) (by
    rw [Shape.rowMajor_val_one, Shape.rowMajor_val_three]; rfl)).trans ?_
  refine (Ideal.multiReduction_add_total _ _ _ (fun b => by match b with | ⟨0, _⟩ => rfl) _ _ _).trans ?_
  rw [← Equiv.sum_comp viewEquiv y]
  exact Finset.sum_congr rfl fun i _ => view_apply y _ i

end Cert.Spec

end
-- ==== Proof.Bridge.lean ====
/-
  From the eight-point accumulator to the result.

  The accumulator's entry k is the sum over the eight images of the k-th total of the image; the k-th total is
  the sum over the image of skel(p)·t, skel(p), skel(t)·p or skel(t), where p is the prediction's image passed
  through the logistic function when the flag is set.  The batch form of each total is the sum over the batch,
  which is the sum over the images of the sum over each image, and the batch's skeleton and prediction are,
  image by image, the image's skeleton and prediction.  So the four entries are the four totals of the batch.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«134960_j61838939128150_1_alg».proof.Proof.Spec
import proofs.«134960_j61838939128150_1_alg».proof.Proof.KForm
import proofs.«134960_j61838939128150_1_alg».proof.Proof.Pool
import proofs.«134960_j61838939128150_1_alg».proof.Proof.Sums

noncomputable section

open scoped BigOperators

namespace Cert.Spec

open Idealize.ShloMosaic Idealize.ShloMosaic.ValueIdx

/-! ## The literals -/

theorem topK_eq : topK = ⊤ := by
  show Ideal.ofBits .f32 0x7F800000#32 = ⊤
  simp [Ideal.ofBits, Ideal.ieee]

theorem botK_eq : botK = ⊥ := by
  show Ideal.ofBits .f32 0xFF800000#32 = ⊥
  simp [Ideal.ofBits, Ideal.ieee]

theorem topB_eq : topB ix0 = ⊤ := topK_eq
theorem botB_eq : botB ix0 = ⊥ := botK_eq

/-- Every image of the zero batch is the zero image. -/
theorem imageOf_zeroB (b : Fin 8) : imageOf zeroB b = zeroK := rfl

/-! ## An entry of a row, the accumulator, and a row's four entries -/

/-- Entry `k` of a row as a single number is the row at (0, k). -/
theorem entry_apply (k : Fin 4) (r : Row) (h1 : R4.Slices ![0, k.val] ⟨2, ![1, 1]⟩)
    (h2 : (⟨2, ![1, 1]⟩ : Shape).ShapeCasts I0) :
    shapeCast I0 (extractStridedSlice ⟨2, ![1, 1]⟩ ![0, k.val] r h1) h2 ix0 = r (ix2 (0 : Fin 1) k) := by
  refine (shapeCast_apply _ h2 ix0 (ix2 (0 : Fin 1) (0 : Fin 1)) ?_).trans ?_
  · have a1 := ((⟨2, ![1, 1]⟩ : Shape).rowMajor (ix2 (0 : Fin 1) (0 : Fin 1))).isLt
    have a2 := (I0.rowMajor ix0).isLt
    have e1 : (⟨2, ![1, 1]⟩ : Shape).numel = 1 := by decide
    have e2 : I0.numel = 1 := by decide
    omega
  · exact extractStridedSlice_apply _ r h1 _ (ix2 (0 : Fin 1) k) (fun a => by
      match a with
      | ⟨0, _⟩ => rfl
      | ⟨1, _⟩ => show k.val = k.val + 0; omega)

theorem entry0_apply (r : Row) : entry0 r ix0 = r (ix2 (0 : Fin 1) (0 : Fin 4)) := entry_apply 0 r _ _
theorem entry1_apply (r : Row) : entry1 r ix0 = r (ix2 (0 : Fin 1) (1 : Fin 4)) := entry_apply 1 r _ _
theorem entry2_apply (r : Row) : entry2 r ix0 = r (ix2 (0 : Fin 1) (2 : Fin 4)) := entry_apply 2 r _ _
theorem entry3_apply (r : Row) : entry3 r ix0 = r (ix2 (0 : Fin 1) (3 : Fin 4)) := entry_apply 3 r _ _

/-- The accumulator after eight points, at an entry: the sum of the eight rows' entries. -/
theorem acc8_apply (R : Fin 8 → Row) (i : R4.Idx) : acc8 R i = ∑ b : Fin 8, R b i := by
  unfold acc8
  simp only [addf_apply]
  rw [Fin.sum_univ_eight]
  show Ideal.ofBits .f32 0x00000000#32 + R 0 i + R 1 i + R 2 i + R 3 i + R 4 i + R 5 i + R 6 i + R 7 i = _
  rw [Ideal.ofBits_zero_f32, zero_add]

/-- Entry `k` of the row laid out from four numbers is the `k`-th number. -/
theorem row4_apply (a0 a1 a2 a3 : Ideal .f32) (k : Fin 4) (h : (⟨1, ![4]⟩ : Shape).ShapeCasts R4) :
    shapeCast R4 (concatenate ⟨1, ![4]⟩ 0
      [⟨⟨1, ![1]⟩, broadcast ⟨1, ![1]⟩ a0⟩, ⟨⟨1, ![1]⟩, broadcast ⟨1, ![1]⟩ a1⟩,
       ⟨⟨1, ![1]⟩, broadcast ⟨1, ![1]⟩ a2⟩, ⟨⟨1, ![1]⟩, broadcast ⟨1, ![1]⟩ a3⟩] cat4) h (ix2 (0 : Fin 1) k)
      = (![a0, a1, a2, a3] : Fin 4 → Ideal .f32) k := by
  refine (shapeCast_apply _ h (ix2 (0 : Fin 1) k) (ix1 k) (by
    rw [Shape.rowMajor_val_one, Shape.rowMajor_val_two]; show k.val = 0 * 4 + k.val; omega)).trans ?_
  match k with
  | ⟨0, _⟩ =>
    exact concatenate_apply_piece (t := ⟨1, ![4]⟩) (0 : Fin 1)
      ([⟨⟨1, ![1]⟩, broadcast ⟨1, ![1]⟩ a0⟩, ⟨⟨1, ![1]⟩, broadcast ⟨1, ![1]⟩ a1⟩,
        ⟨⟨1, ![1]⟩, broadcast ⟨1, ![1]⟩ a2⟩, ⟨⟨1, ![1]⟩, broadcast ⟨1, ![1]⟩ a3⟩] : List ((s : Shape) × (s.Idx → Ideal .f32)))
      cat4 _ 0 (show 0 < 4 by omega) ⟨1, ![1]⟩ (broadcast ⟨1, ![1]⟩ a0) rfl rfl 0 rfl (ix1 (0 : Fin 1))
      (fun b hb => absurd (Subsingleton.elim _ _) hb) rfl
  | ⟨1, _⟩ =>
    exact concatenate_apply_piece (t := ⟨1, ![4]⟩) (0 : Fin 1)
      ([⟨⟨1, ![1]⟩, broadcast ⟨1, ![1]⟩ a0⟩, ⟨⟨1, ![1]⟩, broadcast ⟨1, ![1]⟩ a1⟩,
        ⟨⟨1, ![1]⟩, broadcast ⟨1, ![1]⟩ a2⟩, ⟨⟨1, ![1]⟩, broadcast ⟨1, ![1]⟩ a3⟩] : List ((s : Shape) × (s.Idx → Ideal .f32)))
      cat4 _ 1 (show 1 < 4 by omega) ⟨1, ![1]⟩ (broadcast ⟨1, ![1]⟩ a1) rfl rfl 1 rfl (ix1 (0 : Fin 1))
      (fun b hb => absurd (Subsingleton.elim _ _) hb) rfl
  | ⟨2, _⟩ =>
    exact concatenate_apply_piece (t := ⟨1, ![4]⟩) (0 : Fin 1)
      ([⟨⟨1, ![1]⟩, broadcast ⟨1, ![1]⟩ a0⟩, ⟨⟨1, ![1]⟩, broadcast ⟨1, ![1]⟩ a1⟩,
        ⟨⟨1, ![1]⟩, broadcast ⟨1, ![1]⟩ a2⟩, ⟨⟨1, ![1]⟩, broadcast ⟨1, ![1]⟩ a3⟩] : List ((s : Shape) × (s.Idx → Ideal .f32)))
      cat4 _ 2 (show 2 < 4 by omega) ⟨1, ![1]⟩ (broadcast ⟨1, ![1]⟩ a2) rfl rfl 2 rfl (ix1 (0 : Fin 1))
      (fun b hb => absurd (Subsingleton.elim _ _) hb) rfl
  | ⟨3, _⟩ =>
    exact concatenate_apply_piece (t := ⟨1, ![4]⟩) (0 : Fin 1)
      ([⟨⟨1, ![1]⟩, broadcast ⟨1, ![1]⟩ a0⟩, ⟨⟨1, ![1]⟩, broadcast ⟨1, ![1]⟩ a1⟩,
        ⟨⟨1, ![1]⟩, broadcast ⟨1, ![1]⟩ a2⟩, ⟨⟨1, ![1]⟩, broadcast ⟨1, ![1]⟩ a3⟩] : List ((s : Shape) × (s.Idx → Ideal .f32)))
      cat4 _ 3 (show 3 < 4 by omega) ⟨1, ![1]⟩ (broadcast ⟨1, ![1]⟩ a3) rfl rfl 3 rfl (ix1 (0 : Fin 1))
      (fun b hb => absurd (Subsingleton.elim _ _) hb) rfl

/-- The total of one image is the sum over the image. -/
theorem totalK_eq (y : Img) : totalK y = ∑ j : I2.Idx, y j := sumAll_eq y

/-! ## The prediction, image by image -/

/-- The batch's prediction is, on each image, the image's prediction under the same flag. -/
theorem imageOf_predB (x0 : Batch) (w : BitVec 32) (hw : Scalar.cmpi .sgt w 0#32 = outside x0 ix0) (b : Fin 8) :
    imageOf (predB x0) b = predK w (imageOf x0 b) := by
  funext j
  have hflag : ∀ I : I4.Idx, broadcastInDim I4 ![] (by decide) (outside x0) I = outside x0 ix0 :=
    fun I => congrArg (outside x0) (eq_ix0 _)
  have hsig : ∀ I : I4.Idx, sigmoidB x0 I = FloatOps.logistic (x0 I) := by
    intro I
    show FloatOps.hostDivf (Ideal.ofBits .f32 0x3F800000#32)
      (FloatOps.addf (Ideal.ofBits .f32 0x3F800000#32) (FloatOps.hostUnary .exp (FloatOps.hostNegf (x0 I)))) = _
    rw [Ideal.ofBits_one_f32]
    rfl
  show Scalar.select (broadcastInDim I4 ![] (by decide) (outside x0) (ix4 b 0 (j 0) (j 1)))
      (sigmoidB x0 (ix4 b 0 (j 0) (j 1))) (x0 (ix4 b 0 (j 0) (j 1))) = predK w (imageOf x0 b) j
  rw [hflag, hsig, ← hw]
  unfold predK Scalar.select
  by_cases hc : Scalar.cmpi .sgt w 0#32 = 1
  · rw [if_pos hc, if_pos hc]; rfl
  · rw [if_neg hc, if_neg hc]; rfl

/-- The skeleton of the batch's prediction, image by image. -/
theorem imageOf_skelB_pred (x0 : Batch) (w : BitVec 32) (hw : Scalar.cmpi .sgt w 0#32 = outside x0 ix0) (b : Fin 8) :
    imageOf (skelB topB botB zeroB (predB x0)) b = skel topK botK zeroK (predK w (imageOf x0 b)) := by
  rw [imageOf_skelB topB botB zeroB topK botK zeroK topB_eq botB_eq topK_eq botK_eq imageOf_zeroB,
    imageOf_predB x0 w hw]

/-- The skeleton of the batch's target, image by image. -/
theorem imageOf_skelB_target (x1 : Batch) (b : Fin 8) :
    imageOf (skelB topB botB zeroB x1) b = skel topK botK zeroK (imageOf x1 b) :=
  imageOf_skelB topB botB zeroB topK botK zeroK topB_eq botB_eq topK_eq botK_eq imageOf_zeroB x1 b

/-! ## The four entries are the four totals of the batch -/

/-- Entry (0, k) of a point's row. -/
theorem rowK_apply (w : BitVec 32) (p t : Img) (k : Fin 4) :
    rowK w p t (ix2 (0 : Fin 1) k) =
      (![totalK (mulf (skel topK botK zeroK (predK w p)) t), totalK (skel topK botK zeroK (predK w p)),
         totalK (mulf (skel topK botK zeroK t) (predK w p)), totalK (skel topK botK zeroK t)] : Fin 4 → Ideal .f32) k :=
  by unfold rowK; exact row4_apply _ _ _ _ k _

theorem bridge (x0 x1 : Batch) (w : BitVec 32) (hw : Scalar.cmpi .sgt w 0#32 = outside x0 ix0) :
    dice (entry0 (acc8 fun b => rowK w (imageOf x0 b) (imageOf x1 b))) (entry1 (acc8 fun b => rowK w (imageOf x0 b) (imageOf x1 b)))
         (entry2 (acc8 fun b => rowK w (imageOf x0 b) (imageOf x1 b))) (entry3 (acc8 fun b => rowK w (imageOf x0 b) (imageOf x1 b)))
      = result x0 x1 := by
  have h0 : entry0 (acc8 fun b => rowK w (imageOf x0 b) (imageOf x1 b))
      = totalB (mulf (skelB topB botB zeroB (predB x0)) x1) := by
    funext i
    obtain rfl : i = ix0 := eq_ix0 i
    rw [entry0_apply, acc8_apply, totalB_apply]
    refine Finset.sum_congr rfl fun b _ => ?_
    rw [rowK_apply, imageOf_mulf, imageOf_skelB_pred x0 w hw]
    exact totalK_eq _
  have h1 : entry1 (acc8 fun b => rowK w (imageOf x0 b) (imageOf x1 b))
      = totalB (skelB topB botB zeroB (predB x0)) := by
    funext i
    obtain rfl : i = ix0 := eq_ix0 i
    rw [entry1_apply, acc8_apply, totalB_apply]
    refine Finset.sum_congr rfl fun b _ => ?_
    rw [rowK_apply, imageOf_skelB_pred x0 w hw]
    exact totalK_eq _
  have h2 : entry2 (acc8 fun b => rowK w (imageOf x0 b) (imageOf x1 b))
      = totalB (mulf (skelB topB botB zeroB x1) (predB x0)) := by
    funext i
    obtain rfl : i = ix0 := eq_ix0 i
    rw [entry2_apply, acc8_apply, totalB_apply]
    refine Finset.sum_congr rfl fun b _ => ?_
    rw [rowK_apply, imageOf_mulf, imageOf_skelB_target, imageOf_predB x0 w hw]
    exact totalK_eq _
  have h3 : entry3 (acc8 fun b => rowK w (imageOf x0 b) (imageOf x1 b))
      = totalB (skelB topB botB zeroB x1) := by
    funext i
    obtain rfl : i = ix0 := eq_ix0 i
    rw [entry3_apply, acc8_apply, totalB_apply]
    refine Finset.sum_congr rfl fun b _ => ?_
    rw [rowK_apply, imageOf_skelB_target]
    exact totalK_eq _
  unfold result
  rw [h0, h1, h2, h3]

end Cert.Spec

end
-- ==== Proof.KFinal.lean ====
/-
  The kernel program returns the specification's value.

  The returned value is the closing arithmetic on the four entries of the accumulator after the last point; the
  accumulator is that of the eight rows of totals of the arguments' images; the prefetched word is positive
  exactly when some entry of the prediction lies outside [0, 1]; and the closing arithmetic on those four
  entries is the specification's result.
-/
import proofs.«134960_j61838939128150_1_alg».proof.Proof.KRun
import proofs.«134960_j61838939128150_1_alg».proof.Proof.KArgs
import proofs.«134960_j61838939128150_1_alg».proof.Proof.KWord
import proofs.«134960_j61838939128150_1_alg».proof.Proof.Bridge

noncomputable section

open Idealize.ShloMosaic Idealize.ShloMosaic.TcCoe Idealize.SL.Sem

namespace Cert.KVal

open Cert.KernelIdeal Cert.KernelIdeal.Gen Cert.Spec

variable (m : (ℓ : Loc nD τ sig) → Buf (Elt Ideal) ℓ) (ρ : Dev nD → PrngReg)

theorem returned_eq (hO : Ok m) (c : Dev nD) :
    returned m hO c = result (m ((c : Thread nD τ).loc main_arg0)) (m ((c : Thread nD τ).loc main_arg1)) := by
  unfold returned
  rw [total4_eq m hO c]
  exact bridge _ _ _ (word_eq m c)

/-- The kernel program's run with the result at the specification's value. -/
theorem run_result (hO : Ok m) : θ_run defs (onTc (τ := τ) (main (F := Ideal))) ⟨m, fun _ => 0, ρ⟩ fun r => ∀ c : Dev nD,
      r.2.mem ((c.tc : Thread nD τ).loc main_v26) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (returned_eq m hO c), (h c).2⟩) (run m ρ hO)

end Cert.KVal

end
-- ==== Proof.lean ====
/- The five claims.

   Both idealized programs return, of a batch of eight predictions x0 and targets x1 (1024 × 1024 images), the soft-clDice value
   1 − 2·(P·S)/(P + S),  P = (Σ skel(p)·t + 1)/(Σ skel(p) + 1),  S = (Σ skel(t)·p + 1)/(Σ skel(t) + 1),  where p is x0 passed
   through the logistic function when some entry of x0 lies outside [0, 1], t = x1, skel is the soft skeleton (three rounds of
   erosion, each adding what the opening removes), and the sums run over the whole batch (Spec.lean: `result`).
   The reference computes it on the whole batch with window reductions (RefRun.lean).  The kernel computes the four sums image by
   image over a grid of eight points, accumulating in a scratch buffer (KPiece, KAcc, KOut, KRun, KArgs, KWord), and the host
   closes with the same arithmetic; the two spellings of the sliding minimum and maximum agree image by image (Pool.lean), a sum
   over the batch is the sum over the images of the sums over each image (Sums.lean), and the accumulator's entries are those
   sums (Bridge.lean).  No entry needs to be finite: the two sides apply the same operations to the same entries, and only the
   order of a sum differs.  The frames are the generated frame runs, whose side condition on the prefetched table is empty
   because no window's index map reads the table; the reference's frame is its run with the result dropped. -/
import proofs.«134960_j61838939128150_1_alg».proof.Defs
import proofs.«134960_j61838939128150_1_alg».proof.Proof.Gen.Kernel
import proofs.«134960_j61838939128150_1_alg».proof.Proof.Gen.Kernel.Skeleton
import proofs.«134960_j61838939128150_1_alg».proof.Proof.Gen.Kernel.Launch
import proofs.«134960_j61838939128150_1_alg».proof.Proof.Gen.Kernel.Points
import proofs.«134960_j61838939128150_1_alg».proof.Proof.Gen.Kernel.Frame
import proofs.«134960_j61838939128150_1_alg».proof.Proof.Gen.KernelIdeal
import proofs.«134960_j61838939128150_1_alg».proof.Proof.Gen.KernelIdeal.Skeleton
import proofs.«134960_j61838939128150_1_alg».proof.Proof.Gen.KernelIdeal.Launch
import proofs.«134960_j61838939128150_1_alg».proof.Proof.Gen.KernelIdeal.Points
import proofs.«134960_j61838939128150_1_alg».proof.Proof.Gen.KernelIdeal.Frame
import proofs.«134960_j61838939128150_1_alg».proof.Proof.Gen.ReferenceIdeal
import proofs.«134960_j61838939128150_1_alg».proof.Proof.Gen.Pre_finite_inputs
import proofs.«134960_j61838939128150_1_alg».proof.Proof.RefRun
import proofs.«134960_j61838939128150_1_alg».proof.Proof.KFinal
import Idealize.ShloMosaic.Adequacy
import Idealize.ShloMosaic.Init

noncomputable section

namespace Cert.Proof

open Idealize.ShloMosaic Idealize.SL.Sem Cert.Kernel

/-- The word-level kernel's frame: the generated frame run; its side condition on the table is empty. -/
theorem frame_k : Cert.frame_Kernel := fun m ρ _ => Cert.Kernel.Gen.frame m ρ trivial

/-- The idealized kernel's frame, likewise. -/
theorem frame_ki : Cert.frame_KernelIdeal := fun m ρ _ => Cert.KernelIdeal.Gen.frame m ρ trivial

/-- The reference's frame: its run with the result dropped. -/
theorem frame_ri : Cert.frame_ReferenceIdeal := fun m ρ _ => Cert.RefRun.frame m ρ

/-- The ideal pass rewrote nothing. -/
theorem preserves : Cert.preserves_Kernel_KernelIdeal := trivial

/-- Both runs end at the specification's result of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KVal.run_result m ρ trivial, ?_⟩
  refine (θ_run Cert.ReferenceIdeal.defs _ _).mono (fun _ h c => ⟨(h c).1.trans ?_, (h c).2⟩) (Cert.RefRun.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
